-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x192x192x192 : Shape := ⟨4, ![4, 192, 192, 192]⟩
abbrev S_ : Shape := ⟨0, ![]⟩

class Facts : Prop where
  bcast_S_S4x192x192x192 : S_.BroadcastsInDim S4x192x192x192 (![] : Fin 0 → Fin S4x192x192x192.rank)
  reducesTo_S4x192x192x192_S_d0_1_2_3 : S4x192x192x192.ReducesTo [0, 1, 2, 3] S_
  h_S_ : 0 < S_.numel

variable [Facts]

def fn {F : FTy → Type} [FloatOps F] (main_arg0 : FVec F S4x192x192x192 .f32) (main_arg1 : FVec F S4x192x192x192 .f32) : IVec S_ 1 :=
  let main_v0 : FVec F S4x192x192x192 .f32 := Host.absf main_arg0
  let main_cst : FVec F S_ .f32 := constant S_ .f32 0x7F800000#32
  let main_v1 : FVec F S4x192x192x192 .f32 := broadcastInDim S4x192x192x192 ![] bcast_S_S4x192x192x192 main_cst
  let main_v2 : IVec S4x192x192x192 1 := cmpf .olt main_v0 main_v1
  let main_c : IVec S_ 1 := constantI S_ 1 1#1
  let main_v3 : IVec S_ 1 := (fun x v => Host.reduce IntOp.andi x v reducesTo_S4x192x192x192_S_d0_1_2_3 h_S_) main_v2 main_c
  let main_v4 : FVec F S4x192x192x192 .f32 := Host.absf main_arg1
  let main_cst_0 : FVec F S_ .f32 := constant S_ .f32 0x7F800000#32
  let main_v5 : FVec F S4x192x192x192 .f32 := broadcastInDim S4x192x192x192 ![] bcast_S_S4x192x192x192 main_cst_0
  let main_v6 : IVec S4x192x192x192 1 := cmpf .olt main_v4 main_v5
  let main_c_1 : IVec S_ 1 := constantI S_ 1 1#1
  let main_v7 : IVec S_ 1 := (fun x v => Host.reduce IntOp.andi x v reducesTo_S4x192x192x192_S_d0_1_2_3 h_S_) main_v6 main_c_1
  let main_v8 : IVec S_ 1 := andi main_v3 main_v7
  main_v8
-- ==== Kernel.lean ====
abbrev S4x192x192x192 : Shape := ⟨4, ![4, 192, 192, 192]⟩
abbrev S28311552 : Shape := ⟨1, ![28311552]⟩
abbrev S2x64x64 : Shape := ⟨3, ![2, 64, 64]⟩
abbrev S262144 : Shape := ⟨1, ![262144]⟩
abbrev S1x64x64 : Shape := ⟨3, ![1, 64, 64]⟩
abbrev S64x64 : Shape := ⟨2, ![64, 64]⟩
abbrev S64x8192 : Shape := ⟨2, ![64, 8192]⟩
abbrev S8192x64 : Shape := ⟨2, ![8192, 64]⟩
abbrev S8192 : Shape := ⟨1, ![8192]⟩
abbrev S1x8192 : Shape := ⟨2, ![1, 8192]⟩
abbrev S8192x1 : Shape := ⟨2, ![8192, 1]⟩
abbrev S_ : Shape := ⟨0, ![]⟩
abbrev S64 : Shape := ⟨1, ![64]⟩
abbrev S64x1 : Shape := ⟨2, ![64, 1]⟩
abbrev S1x64 : Shape := ⟨2, ![1, 64]⟩

abbrev nBuf : Space → Nat
  | .hbm => 82
  | .vmem => 7
  | .smem => 0
  | _ => 0

abbrev bufTy : (tb : Table) → Fin (tcTables nBuf tb) → BufTy
  | .hbm, ⟨0, _⟩ => ⟨S4x192x192x192, .f32⟩
  | .hbm, ⟨1, _⟩ => ⟨S4x192x192x192, .f32⟩
  | .hbm, ⟨2, _⟩ => ⟨S28311552, .f32⟩
  | .hbm, ⟨3, _⟩ => ⟨S28311552, .f32⟩
  | .hbm, ⟨4, _⟩ => ⟨S2x64x64, .f32⟩
  | .hbm, ⟨5, _⟩ => ⟨S1x64x64, .f32⟩
  | .hbm, ⟨6, _⟩ => ⟨S64x64, .f32⟩
  | .hbm, ⟨7, _⟩ => ⟨S1x64x64, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64x64, .f32⟩
  | .hbm, ⟨20, _⟩ => ⟨S64x64, .i1⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x1, .f32⟩
  | .hbm, ⟨25, _⟩ => ⟨S1x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S64, .f32⟩
  | .hbm, ⟨49, _⟩ => ⟨S64, .i1⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S64, .f32⟩
  | .hbm, ⟨64, _⟩ => ⟨S64, .i1⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S262144, .f32⟩
  | .local _ .vmem, ⟨1, _⟩ => ⟨S262144, .f32⟩
  | .local _ .vmem, ⟨2, _⟩ => ⟨S262144, .f32⟩
  | .local _ .vmem, ⟨3, _⟩ => ⟨S262144, .f32⟩
  | .local _ .vmem, ⟨4, _⟩ => ⟨S1x64x64, .f32⟩
  | .local _ .vmem, ⟨5, _⟩ => ⟨S1x64x64, .f32⟩
  | .local _ .vmem, ⟨6, _⟩ => ⟨S64x64, .f32⟩
  | _, _ => ⟨S4x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_cst_14 : Ref sig .tc := ⟨.hbm, 62, rfl⟩
abbrev main_v45 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_16 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_17 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_18 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 54], ![false, false]⟩

@[reducible] def k0_t1_loop : Scf.Loop 32 :=
  let c0_i32_1 : BitVec 32 := 0#32
  let c32_i32 : BitVec 32 := 32#32
  let v5 : BitVec 32 := Scalar.addi c0_i32_1 c32_i32
  let c1_i32 : BitVec 32 := 1#32
  ⟨c0_i32_1, v5, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c8192_i32 : BitVec 32 := 8192#32
  let v9 : BitVec 32 := Scalar.muli arg6 c8192_i32
  v9
def k0_off1 (k0_t1 : Fin k0_t1_loop.trips) : Fin 1 → Nat :=
  let c0_i32_1 : BitVec 32 := 0#32
  let c1_i32 : BitVec 32 := 1#32
  let arg6 : BitVec 32 := Scf.iv c0_i32_1 c1_i32 k0_t1
  let c8192_i32 : BitVec 32 := 8192#32
  let v9 : BitVec 32 := Scalar.muli arg6 c8192_i32
  let v10 : BitVec 32 := v9
  let v11 : Index := Scalar.indexCast v10
  ![v11.toNat]
def k0_cond2 (i : grid0.Coords) : BitVec 1 :=
  let arg1 : BitVec 32 := BitVec.ofNat 32 (i 1).val
  let c53_i32 : BitVec 32 := 53#32
  let v6 : BitVec 1 := Scalar.cmpi .eq arg1 c53_i32
  let v7 : BitVec 32 := Scalar.extui v6
  let c0_i32_3 : BitVec 32 := 0#32
  let v8 : BitVec 1 := Scalar.cmpi .ne v7 c0_i32_3
  v8

def cc0_transform_0 (i : grid0.Coords) : Fin 1 → Nat :=
  let arg0 : BitVec 32 := BitVec.ofNat 32 (i 0).val
  let arg1 : BitVec 32 := BitVec.ofNat 32 (i 1).val
  let c54_i32 : BitVec 32 := 54#32
  let v0 : BitVec 32 := Scalar.muli arg0 c54_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c54_i32 : BitVec 32 := 54#32
  let v0 : BitVec 32 := Scalar.muli arg0 c54_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x192x192x192_S28311552 : S4x192x192x192.ShapeCasts S28311552
  inb_S64x64_S64x64_0_0 : ∀ a, (![0, 0] : Fin 2 → Nat) a + S64x64.size a ≤ S64x64.size a
  h_S64x64 : 0 < S64x64.numel
  shapeCasts_S64x64_S64x64 : S64x64.ShapeCasts S64x64
  iota_S64x8192_d0_w32 : S64x8192.Iotas .tc 32 [0]
  iota_S8192x64_d1_w32 : S8192x64.Iotas .tc 32 [1]
  h_S8192 : 0 < S8192.numel
  shapeCasts_S8192_S8192 : S8192.ShapeCasts S8192
  shapeCasts_S8192_S1x8192 : S8192.ShapeCasts S1x8192
  broadcasts_S1x8192_S64x8192 : S1x8192.Broadcasts S64x8192
  natLt_1_32 : 1 < 32
  bitsLt_bf16_f32 : FTy.bits .bf16 < FTy.bits .f32
  shapeCasts_S8192_S8192x1 : S8192.ShapeCasts S8192x1
  broadcasts_S8192x1_S8192x64 : S8192x1.Broadcasts S8192x64
  shapeCasts_S64x64_S1x64x64 : S64x64.ShapeCasts S1x64x64
  inb_S1x64x64_S1x64x64_0_0_0 : ∀ a, (![0, 0, 0] : Fin 3 → Nat) a + S1x64x64.size a ≤ S1x64x64.size a
  h_S1x64x64 : 0 < S1x64x64.numel
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  reducesTo_S64x64_S_d0_1 : S64x64.ReducesTo [0, 1] S_
  h_S_ : 0 < S_.numel
  bcast_S_S64x64 : S_.BroadcastsInDim S64x64 (![] : Fin 0 → Fin S64x64.rank)
  reducesTo_S64x64_S64_d1 : S64x64.ReducesTo [1] S64
  reducesTo_S64x64_S64_d0 : S64x64.ReducesTo [0] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64 : S_.BroadcastsInDim S64 (![] : Fin 0 → Fin S64.rank)
  reducesTo_S64_S_d0 : S64.ReducesTo [0] S_
  dot_S64x8192_S8192x64_S64x64_1_0_0_1_n_n_wf : DotDims.WF S64x8192 S8192x64 S64x64 [1] [0] [0] [1] [] []
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S8192.size a ≤ S262144.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144.size a ≤ S28311552.size a
  hwx0_0 : ∀ i : grid0.Coords, EltTy.bits .f32 = 32 ∨ (Rect.block (s := S28311552) S262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S28311552.size a
  hwx0_1 : ∀ i : grid0.Coords, EltTy.bits .f32 = 32 ∨ (Rect.block (s := S28311552) S262144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)

variable [Facts₀]

def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf

abbrev win0_0 : Pipeline.Window sig grid0 :=
  Pipeline.Window.ofSpec (Memref.whole main_v0) S262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x192x192x192 : Shape := ⟨4, ![4, 192, 192, 192]⟩
abbrev S28311552 : Shape := ⟨1, ![28311552]⟩
abbrev S_ : Shape := ⟨0, ![]⟩
abbrev S4096 : Shape := ⟨1, ![4096]⟩
abbrev S28311552x1 : Shape := ⟨2, ![28311552, 1]⟩
abbrev S64x64 : Shape := ⟨2, ![64, 64]⟩
abbrev S64 : Shape := ⟨1, ![64]⟩
abbrev S64x1 : Shape := ⟨2, ![64, 1]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S4x192x192x192, .f32⟩
  | .hbm, ⟨1, _⟩ => ⟨S4x192x192x192, .f32⟩
  | .hbm, ⟨2, _⟩ => ⟨S28311552, .f32⟩
  | .hbm, ⟨3, _⟩ => ⟨S28311552, .f32⟩
  | .hbm, ⟨4, _⟩ => ⟨S_, .f32⟩
  | .hbm, ⟨5, _⟩ => ⟨S28311552, .f32⟩
  | .hbm, ⟨6, _⟩ => ⟨S28311552, .f32⟩
  | .hbm, ⟨7, _⟩ => ⟨S28311552, .f32⟩
  | .hbm, ⟨8, _⟩ => ⟨S_, .f32⟩
  | .hbm, ⟨9, _⟩ => ⟨S28311552, .f32⟩
  | .hbm, ⟨10, _⟩ => ⟨S28311552, .i1⟩
  | .hbm, ⟨11, _⟩ => ⟨S_, .f32⟩
  | .hbm, ⟨12, _⟩ => ⟨S28311552, .f32⟩
  | .hbm, ⟨13, _⟩ => ⟨S28311552, .i1⟩
  | .hbm, ⟨14, _⟩ => ⟨S28311552, .i1⟩
  | .hbm, ⟨15, _⟩ => ⟨S_, .f32⟩
  | .hbm, ⟨16, _⟩ => ⟨S28311552, .f32⟩
  | .hbm, ⟨17, _⟩ => ⟨S28311552, .f32⟩
  | .hbm, ⟨18, _⟩ => ⟨S_, .f32⟩
  | .hbm, ⟨19, _⟩ => ⟨S28311552, .f32⟩
  | .hbm, ⟨20, _⟩ => ⟨S28311552, .f32⟩
  | .hbm, ⟨21, _⟩ => ⟨S28311552, .f32⟩
  | .hbm, ⟨22, _⟩ => ⟨S28311552, .i32⟩
  | .hbm, ⟨23, _⟩ => ⟨S_, .f32⟩
  | .hbm, ⟨24, _⟩ => ⟨S28311552, .f32⟩
  | .hbm, ⟨25, _⟩ => ⟨S28311552, .i1⟩
  | .hbm, ⟨26, _⟩ => ⟨S_, .i32⟩
  | .hbm, ⟨27, _⟩ => ⟨S_, .i32⟩
  | .hbm, ⟨28, _⟩ => ⟨S28311552, .i32⟩
  | .hbm, ⟨29, _⟩ => ⟨S28311552, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S28311552, .i32⟩
  | .hbm, ⟨34, _⟩ => ⟨S28311552, .i32⟩
  | .hbm, ⟨35, _⟩ => ⟨S_, .i32⟩
  | .hbm, ⟨36, _⟩ => ⟨S28311552, .i32⟩
  | .hbm, ⟨37, _⟩ => ⟨S28311552, .i32⟩
  | .hbm, ⟨38, _⟩ => ⟨S28311552, .f32⟩
  | .hbm, ⟨39, _⟩ => ⟨S_, .f32⟩
  | .hbm, ⟨40, _⟩ => ⟨S4096, .f32⟩
  | .hbm, ⟨41, _⟩ => ⟨S_, .i32⟩
  | .hbm, ⟨42, _⟩ => ⟨S28311552, .i32⟩
  | .hbm, ⟨43, _⟩ => ⟨S28311552, .i1⟩
  | .hbm, ⟨44, _⟩ => ⟨S_, .i32⟩
  | .hbm, ⟨45, _⟩ => ⟨S28311552, .i32⟩
  | .hbm, ⟨46, _⟩ => ⟨S28311552, .i32⟩
  | .hbm, ⟨47, _⟩ => ⟨S28311552, .i32⟩
  | .hbm, ⟨48, _⟩ => ⟨S28311552x1, .i32⟩
  | .hbm, ⟨49, _⟩ => ⟨S4096, .f32⟩
  | .hbm, ⟨50, _⟩ => ⟨S64x64, .f32⟩
  | .hbm, ⟨51, _⟩ => ⟨S_, .f32⟩
  | .hbm, ⟨52, _⟩ => ⟨S_, .f32⟩
  | .hbm, ⟨53, _⟩ => ⟨S64x64, .f32⟩
  | .hbm, ⟨54, _⟩ => ⟨S64x64, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S_, .f32⟩
  | .hbm, ⟨60, _⟩ => ⟨S64x64, .f32⟩
  | .hbm, ⟨61, _⟩ => ⟨S64x64, .i1⟩
  | .hbm, ⟨62, _⟩ => ⟨S_, .f32⟩
  | .hbm, ⟨63, _⟩ => ⟨S64x64, .f32⟩
  | .hbm, ⟨64, _⟩ => ⟨S64x64, .f32⟩
  | .hbm, ⟨65, _⟩ => ⟨S64x1, .f32⟩
  | .hbm, ⟨66, _⟩ => ⟨S1x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S_, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S_, .f32⟩
  | .hbm, ⟨76, _⟩ => ⟨S_, .f32⟩
  | .hbm, ⟨77, _⟩ => ⟨S64x64, .f32⟩
  | .hbm, ⟨78, _⟩ => ⟨S64x64, .f32⟩
  | .hbm, ⟨79, _⟩ => ⟨S64x64, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S64, .f32⟩
  | .hbm, ⟨90, _⟩ => ⟨S64, .i1⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S_, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S64, .f32⟩
  | .hbm, ⟨105, _⟩ => ⟨S64, .i1⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S64, .f32⟩
  | .hbm, ⟨110, _⟩ => ⟨S_, .f32⟩
  | .hbm, ⟨111, _⟩ => ⟨S_, .f32⟩
  | .hbm, ⟨112, _⟩ => ⟨S64, .f32⟩
  | .hbm, ⟨113, _⟩ => ⟨S64, .f32⟩
  | .hbm, ⟨114, _⟩ => ⟨S64, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S4x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c_5 : Ref sig .tc := ⟨.hbm, 30, rfl⟩
abbrev main_c_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_c_8 : Ref sig .tc := ⟨.hbm, 41, rfl⟩
abbrev main_v22 : Ref sig .tc := ⟨.hbm, 42, rfl⟩
abbrev main_v23 : Ref sig .tc := ⟨.hbm, 43, rfl⟩
abbrev main_c_9 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_cst_13 : Ref sig .tc := ⟨.hbm, 59, rfl⟩
abbrev main_v35 : Ref sig .tc := ⟨.hbm, 60, rfl⟩
abbrev main_v36 : Ref sig .tc := ⟨.hbm, 61, rfl⟩
abbrev main_cst_14 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_16 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_17 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_cst_19 : Ref sig .tc := ⟨.hbm, 84, rfl⟩
abbrev main_v54 : Ref sig .tc := ⟨.hbm, 85, rfl⟩
abbrev main_cst_20 : Ref sig .tc := ⟨.hbm, 86, rfl⟩
abbrev main_v55 : Ref sig .tc := ⟨.hbm, 87, rfl⟩
abbrev main_cst_21 : Ref sig .tc := ⟨.hbm, 88, rfl⟩
abbrev main_v56 : Ref sig .tc := ⟨.hbm, 89, rfl⟩
abbrev main_v57 : Ref sig .tc := ⟨.hbm, 90, rfl⟩
abbrev main_cst_22 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_23 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_24 : Ref sig .tc := ⟨.hbm, 100, rfl⟩
abbrev main_v65 : Ref sig .tc := ⟨.hbm, 101, rfl⟩
abbrev main_v66 : Ref sig .tc := ⟨.hbm, 102, rfl⟩
abbrev main_cst_25 : Ref sig .tc := ⟨.hbm, 103, rfl⟩
abbrev main_v67 : Ref sig .tc := ⟨.hbm, 104, rfl⟩
abbrev main_v68 : Ref sig .tc := ⟨.hbm, 105, rfl⟩
abbrev main_cst_26 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_27 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_28 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_29 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩

abbrev nD : Nat := 1
abbrev τ : Topo := Topo.v7x

variable {F : FTy → Type} [FloatOps F]

class Facts₀ : Prop where
  shapeCasts_S4x192x192x192_S28311552 : S4x192x192x192.ShapeCasts S28311552
  bcast_S_S28311552 : S_.BroadcastsInDim S28311552 (![] : Fin 0 → Fin S28311552.rank)
  bcast_S_S4096 : S_.BroadcastsInDim S4096 (![] : Fin 0 → Fin S4096.rank)
  bcast_S28311552_S28311552x1_0 : S28311552.BroadcastsInDim S28311552x1 (![0] : Fin 1 → Fin S28311552x1.rank)
  shapeCasts_S4096_S64x64 : S4096.ShapeCasts S64x64
  reducesTo_S64x64_S_d0_1 : S64x64.ReducesTo [0, 1] S_
  h_S_ : 0 < S_.numel
  bcast_S_S64x64 : S_.BroadcastsInDim S64x64 (![] : Fin 0 → Fin S64x64.rank)
  reducesTo_S64x64_S64_d1 : S64x64.ReducesTo [1] S64
  reducesTo_S64x64_S64_d0 : S64x64.ReducesTo [0] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64 : S_.BroadcastsInDim S64 (![] : Fin 0 → Fin S64.rank)
  reducesTo_S64_S_d0 : S64.ReducesTo [0] S_
  scatter_S4096_S28311552x1_S28311552_n_0_0_1_wf : ScatterDims.WF S4096 S28311552x1 S28311552 [] [0] [0] 1

variable [Facts₀]

def scatter_S4096_S28311552x1_S28311552_n_0_0_1 : ScatterDims S4096 S28311552x1 S28311552 where
  updateWindowDims := []
  insertedWindowDims := [0]
  scatterDimsToOperandDims := [0]
  indexVectorDim := 1
  wf := scatter_S4096_S28311552x1_S28311552_n_0_0_1_wf

class Facts : Prop extends Facts₀ where

variable [Facts]
-- ==== Proof.FrameK.Runs.lean ====
/-
  The frame of the histogram kernel, first part: the host lines around the one region, the blocks of the two
  flattened images each grid point reads, the two conditions of the body (the first step of a core's run zeroes
  the 64x64 accumulator, the last one copies it out), and where the output window is idle.
-/
import proofs.«127204_j17566416241189_2_alg».proof.Proof.Gen.Kernel.Launch
import proofs.«127204_j17566416241189_2_alg».proof.Proof.Gen.Kernel.Skeleton
import proofs.«127204_j17566416241189_2_alg».proof.Proof.Gen.Kernel.Points
import proofs.«127204_j17566416241189_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What a core's buffers hold when the region is entered: the two images flattened by the two lines before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- The lines after the region, stretch by stretch. -/
abbrev tailOps : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition: the second grid coordinate is 0 (the accumulator is zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 54 = 0 :=
  (by decide +kernel : ∀ t : Fin grid0.N, cond0_0 (grid0.coords t) ↔ t.val % 54 = 0)
/-- The second condition: the second grid coordinate is 53 (the accumulator is copied out). -/
abbrev cond0_1 (i : grid0.Coords) : Prop := k0_cond2 i = 1#1
theorem hcond0_1 : ∀ t : Fin cfg0.N, cond0_1 (grid0.coords t) ↔ t.val % 54 = 53 :=
  (by decide +kernel : ∀ t : Fin grid0.N, cond0_1 (grid0.coords t) ↔ t.val % 54 = 53)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs -/

abbrev VO0_2 : View sig .tc .vmem S1x64x64 .f32 := (Memref.whole cc0_stg2_0 : Memref sig .tc .vmem S1x64x64 .f32).view
abbrev ms0_0 (t : Fin cfg0.N) : Memref sig .tc .vmem S262144 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S262144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)
/-- The 64x64 accumulator the kernel carries from one grid point to the next. -/
abbrev scM0_0 : Memref sig .tc .vmem S64x64 .f32 := Memref.whole cc0_scratch0
abbrev VS0_0 : View sig .tc .vmem S64x64 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.FrameK.RunA.lean ====
/-
  The body of the histogram kernel run once, at the first step of a core's run: the accumulator is zeroed, then the 32 chunks of the block are added; nothing is copied out.
-/
import proofs.«127204_j17566416241189_2_alg».proof.Proof.FrameK.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the accumulator, with the proof that the
    body runs from the inputs' blocks to a state holding them. -/
noncomputable def kernelRun0_A (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i)
    (x0 : Vec F S262144 .f32) (x1 : Vec F S262144 .f32) :
    Σ' (L2 : List (View.Piece (Elt F) S1x64x64 .f32)), { LS0 : List (View.Piece (Elt F) S64x64 .f32) //
      ∀ (xi2 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.FrameK.RunB.lean ====
/-
  The body of the histogram kernel run once, at a step that is neither the first nor the last of a core's run: the 32 chunks of the block are added to the accumulator as the step before left it.
-/
import proofs.«127204_j17566416241189_2_alg».proof.Proof.FrameK.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the accumulator, with the proof that the
    body runs from the inputs' blocks to a state holding them. -/
noncomputable def kernelRun0_B (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i)
    (x0 : Vec F S262144 .f32) (x1 : Vec F S262144 .f32) (xs0 : Vec F S64x64 .f32) :
    Σ' (L2 : List (View.Piece (Elt F) S1x64x64 .f32)), { LS0 : List (View.Piece (Elt F) S64x64 .f32) //
      ∀ (xi2 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.FrameK.RunC.lean ====
/-
  The body of the histogram kernel run once, at the last step of a core's run: the 32 chunks of the block are added to the accumulator, which is then copied into the output block.
-/
import proofs.«127204_j17566416241189_2_alg».proof.Proof.FrameK.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the accumulator, with the proof that the
    body runs from the inputs' blocks to a state holding them. -/
noncomputable def kernelRun0_C (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) :
    Σ' (L2 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.FrameK.Frame.lean ====
/-
  The frame of the histogram kernel, second part. What the accumulator and the output block hold after each grid
  point is defined by recursion on the point (zeroed at the first step of a core's run, the block's 32 chunks added at
  every step, copied out at the last step); the body is run case by case against it, and the launch theorem for a
  kernel with a carried scratch buffer and host lines after the region gives the run of the whole program.
-/
import proofs.«127204_j17566416241189_2_alg».proof.Proof.FrameK.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def out0_A_2 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i)
    (x0 : Vec F S262144 .f32) (x1 : Vec F S262144 .f32) : Vec F S1x64x64 .f32 :=
  VO0_2.read (Elt F) (VO0_2.writes (Elt F) VO0_2.junk (kernelRun0_A c i arg2 harg2 arg3 harg3 arg4 harg4 arg5 harg5 hc0 hc1 x0 x1).1)
theorem scover0_A_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i)
    (x0 : Vec F S262144 .f32) (x1 : Vec F S262144 .f32) (y : S64x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S64x64.size (by sl_kernel_rfl) y
def sout0_A_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i)
    (x0 : Vec F S262144 .f32) (x1 : Vec F S262144 .f32) : Vec F S64x64 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i)
    (x0 : Vec F S262144 .f32) (x1 : Vec F S262144 .f32) (xs0 : Vec F S64x64 .f32) : Vec F S1x64x64 .f32 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i)
    (x0 : Vec F S262144 .f32) (x1 : Vec F S262144 .f32) (xs0 : Vec F S64x64 .f32) (y : S64x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S64x64.size (by sl_kernel_rfl) y
def sout0_B_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i)
    (x0 : Vec F S262144 .f32) (x1 : Vec F S262144 .f32) (xs0 : Vec F S64x64 .f32) : Vec F S64x64 .f32 :=
  VS0_0.read (Elt F) (VS0_0.writes (Elt F) VS0_0.junk (kernelRun0_B c i arg2 harg2 arg3 harg3 arg4 harg4 arg5 harg5 hc0 hc1 x0 x1 xs0).2.1)

def out0_C_2 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) : Vec F S1x64x64 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) (y : S64x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S64x64.size (by sl_kernel_rfl) y
def sout0_C_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) : Vec F S64x64 .f32 :=
  VS0_0.read (Elt F) (VS0_0.writes (Elt F) VS0_0.junk (kernelRun0_C c i arg2 harg2 arg3 harg3 arg4 harg4 arg5 harg5 hc0 hc1 x0 x1 xs0).2.1)

theorem cover0_C_2 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) (y : S1x64x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x64x64.size (by sl_kernel_rfl) y

/-! ## What the output block and the accumulator hold after each point -/

/-- After the body at position `n`: (the output's staging buffer, the accumulator). -/
def outsAt0 (c : Dev nD) : (n : ℕ) → n < cfg0.N → Vec F S1x64x64 .f32 × Vec F S64x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 54 = 0 then
      if h1 : (n + 1) % 54 = 53 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 54 = 53 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 54 = 0) (h1 : ¬t.val % 54 = 53) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 54 = 0) (h1 : ¬t.val % 54 = 53) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 54 = 0) (h1 : t.val % 54 = 53) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scratch at anything; afterwards the
    accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 108 := lt_of_lt_of_eq t.isLt (show cfg0.N = 108 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 54 = 0
  · by_cases h1 : t.val % 54 = 53
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 54 = 53
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 108 := N_0; omega)

/-! ## The run of the whole program -/

set_option backward.isDefEq.respectTransparency.types false in
/-- Every weakly fair execution of the program terminates; each array of the pipeline ends at what the proof data
    computes and every other buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.Kernel.Hand

end
-- ==== Proof.FrameK.FrameOf.lean ====
/-
  The frame of the histogram kernel, last part: the two argument arrays end as launched. No host line before the
  region writes an argument (each writes only its own result), none after it does, and no window of the region has
  an argument as its array; so the run of the whole program leaves both where they were.
-/
import proofs.«127204_j17566416241189_2_alg».proof.Proof.FrameK.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region write no argument, stretch by stretch -/

theorem hostOps1_keeps_main_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps_main_arg0 : (hostOps1_1 : List (HloOp τ sig (Elt F))).Forall fun op => Proc.devRef .tc main_arg0 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps_main_arg0 : (hostOps1_2 : List (HloOp τ sig (Elt F))).Forall fun op => Proc.devRef .tc main_arg0 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps_main_arg0 : (hostOps1_3 : List (HloOp τ sig (Elt F))).Forall fun op => Proc.devRef .tc main_arg0 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps_main_arg0 : (hostOps1_4 : List (HloOp τ sig (Elt F))).Forall fun op => Proc.devRef .tc main_arg0 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps_main_arg0 : (hostOps1_5 : List (HloOp τ sig (Elt F))).Forall fun op => Proc.devRef .tc main_arg0 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps_main_arg0 : (hostOps1_6 : List (HloOp τ sig (Elt F))).Forall fun op => Proc.devRef .tc main_arg0 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No line after the region writes `main_arg0`. -/
theorem tail_keeps_main_arg0 : ∀ op ∈ (tailOps : List (List (HloOp τ sig (Elt F)))).flatten, Proc.devRef .tc main_arg0 ∉ op.writes := by
  intro op hop
  obtain ⟨ops, hops, hop⟩ := List.mem_flatten.mp hop
  simp only [List.mem_cons, List.mem_nil_iff, or_false] at hops
  rcases hops with rfl | rfl | rfl | rfl | rfl | rfl | rfl
  · exact (List.forall_iff_forall_mem.mp hostOps1_keeps_main_arg0) op hop
  · exact (List.forall_iff_forall_mem.mp hostOps1_1_keeps_main_arg0) op hop
  · exact (List.forall_iff_forall_mem.mp hostOps1_2_keeps_main_arg0) op hop
  · exact (List.forall_iff_forall_mem.mp hostOps1_3_keeps_main_arg0) op hop
  · exact (List.forall_iff_forall_mem.mp hostOps1_4_keeps_main_arg0) op hop
  · exact (List.forall_iff_forall_mem.mp hostOps1_5_keeps_main_arg0) op hop
  · exact (List.forall_iff_forall_mem.mp hostOps1_6_keeps_main_arg0) op hop

theorem hostOps1_keeps_main_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps_main_arg1 : (hostOps1_1 : List (HloOp τ sig (Elt F))).Forall fun op => Proc.devRef .tc main_arg1 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps_main_arg1 : (hostOps1_2 : List (HloOp τ sig (Elt F))).Forall fun op => Proc.devRef .tc main_arg1 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps_main_arg1 : (hostOps1_3 : List (HloOp τ sig (Elt F))).Forall fun op => Proc.devRef .tc main_arg1 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps_main_arg1 : (hostOps1_4 : List (HloOp τ sig (Elt F))).Forall fun op => Proc.devRef .tc main_arg1 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps_main_arg1 : (hostOps1_5 : List (HloOp τ sig (Elt F))).Forall fun op => Proc.devRef .tc main_arg1 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps_main_arg1 : (hostOps1_6 : List (HloOp τ sig (Elt F))).Forall fun op => Proc.devRef .tc main_arg1 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No line after the region writes `main_arg1`. -/
theorem tail_keeps_main_arg1 : ∀ op ∈ (tailOps : List (List (HloOp τ sig (Elt F)))).flatten, Proc.devRef .tc main_arg1 ∉ op.writes := by
  intro op hop
  obtain ⟨ops, hops, hop⟩ := List.mem_flatten.mp hop
  simp only [List.mem_cons, List.mem_nil_iff, or_false] at hops
  rcases hops with rfl | rfl | rfl | rfl | rfl | rfl | rfl
  · exact (List.forall_iff_forall_mem.mp hostOps1_keeps_main_arg1) op hop
  · exact (List.forall_iff_forall_mem.mp hostOps1_1_keeps_main_arg1) op hop
  · exact (List.forall_iff_forall_mem.mp hostOps1_2_keeps_main_arg1) op hop
  · exact (List.forall_iff_forall_mem.mp hostOps1_3_keeps_main_arg1) op hop
  · exact (List.forall_iff_forall_mem.mp hostOps1_4_keeps_main_arg1) op hop
  · exact (List.forall_iff_forall_mem.mp hostOps1_5_keeps_main_arg1) op hop
  · exact (List.forall_iff_forall_mem.mp hostOps1_6_keeps_main_arg1) op hop

/-! ## The arguments before and after the region -/

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg0`: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ tail_keeps_main_arg0,
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg1`: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ tail_keeps_main_arg1,
    Pipeline.withArrays_of_ne _ c (V0 m c) _ main_arg1 (by exact (by decide : ∀ w, Pipeline.arrRef spec0 w ≠ main_arg1))]
  exact V_main_arg1 m c

/-! ## The frame -/

/-- THE FRAME: every weakly fair execution of the program terminates, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Kernel.Hand

end
-- ==== Proof.FrameKI.Runs.lean ====
/-
  The frame of the histogram kernel, first part: the host lines around the one region, the blocks of the two
  flattened images each grid point reads, the two conditions of the body (the first step of a core's run zeroes
  the 64x64 accumulator, the last one copies it out), and where the output window is idle.
-/
import proofs.«127204_j17566416241189_2_alg».proof.Proof.Gen.KernelIdeal.Launch
import proofs.«127204_j17566416241189_2_alg».proof.Proof.Gen.KernelIdeal.Skeleton
import proofs.«127204_j17566416241189_2_alg».proof.Proof.Gen.KernelIdeal.Points
import proofs.«127204_j17566416241189_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What a core's buffers hold when the region is entered: the two images flattened by the two lines before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- The lines after the region, stretch by stretch. -/
abbrev tailOps : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition: the second grid coordinate is 0 (the accumulator is zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 54 = 0 :=
  (by decide +kernel : ∀ t : Fin grid0.N, cond0_0 (grid0.coords t) ↔ t.val % 54 = 0)
/-- The second condition: the second grid coordinate is 53 (the accumulator is copied out). -/
abbrev cond0_1 (i : grid0.Coords) : Prop := k0_cond2 i = 1#1
theorem hcond0_1 : ∀ t : Fin cfg0.N, cond0_1 (grid0.coords t) ↔ t.val % 54 = 53 :=
  (by decide +kernel : ∀ t : Fin grid0.N, cond0_1 (grid0.coords t) ↔ t.val % 54 = 53)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs -/

abbrev VO0_2 : View sig .tc .vmem S1x64x64 .f32 := (Memref.whole cc0_stg2_0 : Memref sig .tc .vmem S1x64x64 .f32).view
abbrev ms0_0 (t : Fin cfg0.N) : Memref sig .tc .vmem S262144 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S262144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)
/-- The 64x64 accumulator the kernel carries from one grid point to the next. -/
abbrev scM0_0 : Memref sig .tc .vmem S64x64 .f32 := Memref.whole cc0_scratch0
abbrev VS0_0 : View sig .tc .vmem S64x64 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.FrameKI.RunA.lean ====
/-
  The body of the histogram kernel run once, at the first step of a core's run: the accumulator is zeroed, then the 32 chunks of the block are added; nothing is copied out.
-/
import proofs.«127204_j17566416241189_2_alg».proof.Proof.FrameKI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the accumulator, with the proof that the
    body runs from the inputs' blocks to a state holding them. -/
noncomputable def kernelRun0_A (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i)
    (x0 : Vec F S262144 .f32) (x1 : Vec F S262144 .f32) :
    Σ' (L2 : List (View.Piece (Elt F) S1x64x64 .f32)), { LS0 : List (View.Piece (Elt F) S64x64 .f32) //
      ∀ (xi2 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.FrameKI.RunB.lean ====
/-
  The body of the histogram kernel run once, at a step that is neither the first nor the last of a core's run: the 32 chunks of the block are added to the accumulator as the step before left it.
-/
import proofs.«127204_j17566416241189_2_alg».proof.Proof.FrameKI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the accumulator, with the proof that the
    body runs from the inputs' blocks to a state holding them. -/
noncomputable def kernelRun0_B (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i)
    (x0 : Vec F S262144 .f32) (x1 : Vec F S262144 .f32) (xs0 : Vec F S64x64 .f32) :
    Σ' (L2 : List (View.Piece (Elt F) S1x64x64 .f32)), { LS0 : List (View.Piece (Elt F) S64x64 .f32) //
      ∀ (xi2 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨[], ?_, fun xi2 E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.FrameKI.RunC.lean ====
/-
  The body of the histogram kernel run once, at the last step of a core's run: the 32 chunks of the block are added to the accumulator, which is then copied into the output block.
-/
import proofs.«127204_j17566416241189_2_alg».proof.Proof.FrameKI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging buffer and in the accumulator, with the proof that the
    body runs from the inputs' blocks to a state holding them. -/
noncomputable def kernelRun0_C (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) :
    Σ' (L2 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__hist_kernel i arg2 harg2 arg3 harg3 arg4 harg4 arg5 harg5) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.FrameKI.Frame.lean ====
/-
  The frame of the histogram kernel, second part. What the accumulator and the output block hold after each grid
  point is defined by recursion on the point (zeroed at the first step of a core's run, the block's 32 chunks added at
  every step, copied out at the last step); the body is run case by case against it, and the launch theorem for a
  kernel with a carried scratch buffer and host lines after the region gives the run of the whole program.
-/
import proofs.«127204_j17566416241189_2_alg».proof.Proof.FrameKI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def out0_A_2 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i)
    (x0 : Vec F S262144 .f32) (x1 : Vec F S262144 .f32) : Vec F S1x64x64 .f32 :=
  VO0_2.read (Elt F) (VO0_2.writes (Elt F) VO0_2.junk (kernelRun0_A c i arg2 harg2 arg3 harg3 arg4 harg4 arg5 harg5 hc0 hc1 x0 x1).1)
theorem scover0_A_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i)
    (x0 : Vec F S262144 .f32) (x1 : Vec F S262144 .f32) (y : S64x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S64x64.size (by sl_kernel_rfl) y
def sout0_A_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i)
    (x0 : Vec F S262144 .f32) (x1 : Vec F S262144 .f32) : Vec F S64x64 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i)
    (x0 : Vec F S262144 .f32) (x1 : Vec F S262144 .f32) (xs0 : Vec F S64x64 .f32) : Vec F S1x64x64 .f32 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i)
    (x0 : Vec F S262144 .f32) (x1 : Vec F S262144 .f32) (xs0 : Vec F S64x64 .f32) (y : S64x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S64x64.size (by sl_kernel_rfl) y
def sout0_B_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i)
    (x0 : Vec F S262144 .f32) (x1 : Vec F S262144 .f32) (xs0 : Vec F S64x64 .f32) : Vec F S64x64 .f32 :=
  VS0_0.read (Elt F) (VS0_0.writes (Elt F) VS0_0.junk (kernelRun0_B c i arg2 harg2 arg3 harg3 arg4 harg4 arg5 harg5 hc0 hc1 x0 x1 xs0).2.1)

def out0_C_2 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) : Vec F S1x64x64 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) (y : S64x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S64x64.size (by sl_kernel_rfl) y
def sout0_C_0 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) : Vec F S64x64 .f32 :=
  VS0_0.read (Elt F) (VS0_0.writes (Elt F) VS0_0.junk (kernelRun0_C c i arg2 harg2 arg3 harg3 arg4 harg4 arg5 harg5 hc0 hc1 x0 x1 xs0).2.1)

theorem cover0_C_2 (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i)
    (x0 : Vec F S262144 .f32) (x1 : Vec F S262144 .f32) (xs0 : Vec F S64x64 .f32) (y : S1x64x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x64x64.size (by sl_kernel_rfl) y

/-! ## What the output block and the accumulator hold after each point -/

/-- After the body at position `n`: (the output's staging buffer, the accumulator). -/
def outsAt0 (c : Dev nD) : (n : ℕ) → n < cfg0.N → Vec F S1x64x64 .f32 × Vec F S64x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 54 = 0 then
      if h1 : (n + 1) % 54 = 53 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 54 = 53 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 54 = 0) (h1 : ¬t.val % 54 = 53) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 54 = 0) (h1 : ¬t.val % 54 = 53) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 54 = 0) (h1 : t.val % 54 = 53) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scratch at anything; afterwards the
    accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 108 := lt_of_lt_of_eq t.isLt (show cfg0.N = 108 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 54 = 0
  · by_cases h1 : t.val % 54 = 53
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 54 = 53
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 108 := N_0; omega)

/-! ## The run of the whole program -/

set_option backward.isDefEq.respectTransparency.types false in
/-- Every weakly fair execution of the program terminates; each array of the pipeline ends at what the proof data
    computes and every other buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.KernelIdeal.Hand

end
-- ==== Proof.FrameKI.FrameOf.lean ====
/-
  The frame of the histogram kernel, last part: the two argument arrays end as launched. No host line before the
  region writes an argument (each writes only its own result), none after it does, and no window of the region has
  an argument as its array; so the run of the whole program leaves both where they were.
-/
import proofs.«127204_j17566416241189_2_alg».proof.Proof.FrameKI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region write no argument, stretch by stretch -/

theorem hostOps1_keeps_main_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps_main_arg0 : (hostOps1_1 : List (HloOp τ sig (Elt F))).Forall fun op => Proc.devRef .tc main_arg0 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps_main_arg0 : (hostOps1_2 : List (HloOp τ sig (Elt F))).Forall fun op => Proc.devRef .tc main_arg0 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps_main_arg0 : (hostOps1_3 : List (HloOp τ sig (Elt F))).Forall fun op => Proc.devRef .tc main_arg0 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps_main_arg0 : (hostOps1_4 : List (HloOp τ sig (Elt F))).Forall fun op => Proc.devRef .tc main_arg0 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps_main_arg0 : (hostOps1_5 : List (HloOp τ sig (Elt F))).Forall fun op => Proc.devRef .tc main_arg0 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps_main_arg0 : (hostOps1_6 : List (HloOp τ sig (Elt F))).Forall fun op => Proc.devRef .tc main_arg0 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No line after the region writes `main_arg0`. -/
theorem tail_keeps_main_arg0 : ∀ op ∈ (tailOps : List (List (HloOp τ sig (Elt F)))).flatten, Proc.devRef .tc main_arg0 ∉ op.writes := by
  intro op hop
  obtain ⟨ops, hops, hop⟩ := List.mem_flatten.mp hop
  simp only [List.mem_cons, List.mem_nil_iff, or_false] at hops
  rcases hops with rfl | rfl | rfl | rfl | rfl | rfl | rfl
  · exact (List.forall_iff_forall_mem.mp hostOps1_keeps_main_arg0) op hop
  · exact (List.forall_iff_forall_mem.mp hostOps1_1_keeps_main_arg0) op hop
  · exact (List.forall_iff_forall_mem.mp hostOps1_2_keeps_main_arg0) op hop
  · exact (List.forall_iff_forall_mem.mp hostOps1_3_keeps_main_arg0) op hop
  · exact (List.forall_iff_forall_mem.mp hostOps1_4_keeps_main_arg0) op hop
  · exact (List.forall_iff_forall_mem.mp hostOps1_5_keeps_main_arg0) op hop
  · exact (List.forall_iff_forall_mem.mp hostOps1_6_keeps_main_arg0) op hop

theorem hostOps1_keeps_main_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps_main_arg1 : (hostOps1_1 : List (HloOp τ sig (Elt F))).Forall fun op => Proc.devRef .tc main_arg1 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps_main_arg1 : (hostOps1_2 : List (HloOp τ sig (Elt F))).Forall fun op => Proc.devRef .tc main_arg1 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps_main_arg1 : (hostOps1_3 : List (HloOp τ sig (Elt F))).Forall fun op => Proc.devRef .tc main_arg1 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps_main_arg1 : (hostOps1_4 : List (HloOp τ sig (Elt F))).Forall fun op => Proc.devRef .tc main_arg1 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps_main_arg1 : (hostOps1_5 : List (HloOp τ sig (Elt F))).Forall fun op => Proc.devRef .tc main_arg1 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps_main_arg1 : (hostOps1_6 : List (HloOp τ sig (Elt F))).Forall fun op => Proc.devRef .tc main_arg1 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
/-- No line after the region writes `main_arg1`. -/
theorem tail_keeps_main_arg1 : ∀ op ∈ (tailOps : List (List (HloOp τ sig (Elt F)))).flatten, Proc.devRef .tc main_arg1 ∉ op.writes := by
  intro op hop
  obtain ⟨ops, hops, hop⟩ := List.mem_flatten.mp hop
  simp only [List.mem_cons, List.mem_nil_iff, or_false] at hops
  rcases hops with rfl | rfl | rfl | rfl | rfl | rfl | rfl
  · exact (List.forall_iff_forall_mem.mp hostOps1_keeps_main_arg1) op hop
  · exact (List.forall_iff_forall_mem.mp hostOps1_1_keeps_main_arg1) op hop
  · exact (List.forall_iff_forall_mem.mp hostOps1_2_keeps_main_arg1) op hop
  · exact (List.forall_iff_forall_mem.mp hostOps1_3_keeps_main_arg1) op hop
  · exact (List.forall_iff_forall_mem.mp hostOps1_4_keeps_main_arg1) op hop
  · exact (List.forall_iff_forall_mem.mp hostOps1_5_keeps_main_arg1) op hop
  · exact (List.forall_iff_forall_mem.mp hostOps1_6_keeps_main_arg1) op hop

/-! ## The arguments before and after the region -/

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg0`: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ tail_keeps_main_arg0,
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg1`: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ tail_keeps_main_arg1,
    Pipeline.withArrays_of_ne _ c (V0 m c) _ main_arg1 (by exact (by decide : ∀ w, Pipeline.arrRef spec0 w ≠ main_arg1))]
  exact V_main_arg1 m c

/-! ## The frame -/

/-- THE FRAME: every weakly fair execution of the program terminates, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefRun.lean ====
/-
  The reference program's @main as the list of its 121 host operations, and its run read back: every weakly fair
  execution terminates with the result buffer at the operations' composed pure term of the two images, the images
  unchanged. (The histogram is the scatter-add of the in-range indicator at the bin word; the rest is the mutual
  information and entropy arithmetic on the 64x64 table.)
-/
import proofs.«127204_j17566416241189_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 121 operations, in order (a called function's operations stand in its call's place, spelt `TRef.…`). -/
abbrev ops : List (HloOp τ sig (Elt F)) :=
  [ reshape main_arg0 main_v0 rfl shapeCasts_S4x192x192x192_S28311552,
    reshape main_arg1 main_v1 rfl shapeCasts_S4x192x192x192_S28311552,
    nullary main_cst (constant S_ .f32 0x3F800000#32),
    unary main_cst main_v2 (broadcastInDim S28311552 ![] bcast_S_S28311552 : (⟨S_, .f32⟩ : BufTy).Contents (Elt F) → (⟨S28311552, .f32⟩ : BufTy).Contents (Elt F)),
    binary main_v0 main_v2 main_v3 (mulf : (⟨S28311552, .f32⟩ : BufTy).Contents (Elt F) → (⟨S28311552, .f32⟩ : BufTy).Contents (Elt F) → (⟨S28311552, .f32⟩ : BufTy).Contents (Elt F)),
    binary main_v3 main_v1 main_v4 (addf : (⟨S28311552, .f32⟩ : BufTy).Contents (Elt F) → (⟨S28311552, .f32⟩ : BufTy).Contents (Elt F) → (⟨S28311552, .f32⟩ : BufTy).Contents (Elt F)),
    nullary main_cst_0 (constant S_ .f32 0x00000000#32),
    unary main_cst_0 main_v5 (broadcastInDim S28311552 ![] bcast_S_S28311552 : (⟨S_, .f32⟩ : BufTy).Contents (Elt F) → (⟨S28311552, .f32⟩ : BufTy).Contents (Elt F)),
    binary main_v4 main_v5 main_v6 (cmpf .oge : (⟨S28311552, .f32⟩ : BufTy).Contents (Elt F) → (⟨S28311552, .f32⟩ : BufTy).Contents (Elt F) → (⟨S28311552, .i1⟩ : BufTy).Contents (Elt F)),
    nullary main_cst_1 (constant S_ .f32 0x3F800000#32),
    unary main_cst_1 main_v7 (broadcastInDim S28311552 ![] bcast_S_S28311552 : (⟨S_, .f32⟩ : BufTy).Contents (Elt F) → (⟨S28311552, .f32⟩ : BufTy).Contents (Elt F)),
    binary main_v4 main_v7 main_v8 (cmpf .ole : (⟨S28311552, .f32⟩ : BufTy).Contents (Elt F) → (⟨S28311552, .f32⟩ : BufTy).Contents (Elt F) → (⟨S28311552, .i1⟩ : BufTy).Contents (Elt F)),
    binary main_v6 main_v8 main_v9 (andi : (⟨S28311552, .i1⟩ : BufTy).Contents (Elt F) → (⟨S28311552, .i1⟩ : BufTy).Contents (Elt F) → (⟨S28311552, .i1⟩ : BufTy).Contents (Elt F)),
    nullary main_cst_2 (constant S_ .f32 0x00000000#32),
    unary main_cst_2 main_v10 (broadcastInDim S28311552 ![] bcast_S_S28311552 : (⟨S_, .f32⟩ : BufTy).Contents (Elt F) → (⟨S28311552, .f32⟩ : BufTy).Contents (Elt F)),
    binary main_v4 main_v10 main_v11 (subf : (⟨S28311552, .f32⟩ : BufTy).Contents (Elt F) → (⟨S28311552, .f32⟩ : BufTy).Contents (Elt F) → (⟨S28311552, .f32⟩ : BufTy).Contents (Elt F)),
    nullary main_cst_3 (constant S_ .f32 0x39800000#32),
    unary main_cst_3 main_v12 (broadcastInDim S28311552 ![] bcast_S_S28311552 : (⟨S_, .f32⟩ : BufTy).Contents (Elt F) → (⟨S28311552, .f32⟩ : BufTy).Contents (Elt F)),
    binary main_v11 main_v12 main_v13 (Host.divf : (⟨S28311552, .f32⟩ : BufTy).Contents (Elt F) → (⟨S28311552, .f32⟩ : BufTy).Contents (Elt F) → (⟨S28311552, .f32⟩ : BufTy).Contents (Elt F)),
    unary main_v13 main_v14 (Host.floor : (⟨S28311552, .f32⟩ : BufTy).Contents (Elt F) → (⟨S28311552, .f32⟩ : BufTy).Contents (Elt F)),
    unary main_v14 main_v15 (fptosi 32 : (⟨S28311552, .f32⟩ : BufTy).Contents (Elt F) → (⟨S28311552, .i32⟩ : BufTy).Contents (Elt F)),
    nullary main_cst_4 (constant S_ .f32 0x3F800000#32),
    unary main_cst_4 main_v16 (broadcastInDim S28311552 ![] bcast_S_S28311552 : (⟨S_, .f32⟩ : BufTy).Contents (Elt F) → (⟨S28311552, .f32⟩ : BufTy).Contents (Elt F)),
    binary main_v4 main_v16 main_v17 (cmpf .oeq : (⟨S28311552, .f32⟩ : BufTy).Contents (Elt F) → (⟨S28311552, .f32⟩ : BufTy).Contents (Elt F) → (⟨S28311552, .i1⟩ : BufTy).Contents (Elt F)),
    nullary main_c (constantI S_ 32 4095#32),
    TRef.unary (TRef.of (T := ⟨S_, .i32⟩) main_c) (TRef.of (T := ⟨S_, .i32⟩) main_call0_v0) id,
    TRef.unary (TRef.of (T := ⟨S_, .i32⟩) main_call0_v0) (TRef.of (T := ⟨S28311552, .i32⟩) main_call0_v1) (broadcastInDim S28311552 ![] bcast_S_S28311552),
    TRef.ternary (TRef.of (T := ⟨S28311552, .i1⟩) main_v17) (TRef.of (T := ⟨S28311552, .i32⟩) main_call0_v1) (TRef.of (T := ⟨S28311552, .i32⟩) main_v15) (TRef.of (T := ⟨S28311552, .i32⟩) main_v18) select,
    nullary main_c_5 (constantI S_ 32 0#32),
    nullary main_c_6 (constantI S_ 32 4095#32),
    TRef.unary (TRef.of (T := ⟨S_, .i32⟩) main_c_5) (TRef.of (T := ⟨S_, .i32⟩) main_call1_v0) id,
    TRef.unary (TRef.of (T := ⟨S_, .i32⟩) main_call1_v0) (TRef.of (T := ⟨S28311552, .i32⟩) main_call1_v1) (broadcastInDim S28311552 ![] bcast_S_S28311552),
    TRef.binary (TRef.of (T := ⟨S28311552, .i32⟩) main_call1_v1) (TRef.of (T := ⟨S28311552, .i32⟩) main_v18) (TRef.of (T := ⟨S28311552, .i32⟩) main_call1_v2) maxsi,
    TRef.unary (TRef.of (T := ⟨S_, .i32⟩) main_c_6) (TRef.of (T := ⟨S_, .i32⟩) main_call1_v3) id,
    TRef.unary (TRef.of (T := ⟨S_, .i32⟩) main_call1_v3) (TRef.of (T := ⟨S28311552, .i32⟩) main_call1_v4) (broadcastInDim S28311552 ![] bcast_S_S28311552),
    TRef.binary (TRef.of (T := ⟨S28311552, .i32⟩) main_call1_v4) (TRef.of (T := ⟨S28311552, .i32⟩) main_call1_v2) (TRef.of (T := ⟨S28311552, .i32⟩) main_v19) minsi,
    unary main_v9 main_v20 (uitofp .f32 : (⟨S28311552, .i1⟩ : BufTy).Contents (Elt F) → (⟨S28311552, .f32⟩ : BufTy).Contents (Elt F)),
    nullary main_cst_7 (constant S_ .f32 0x00000000#32),
    unary main_cst_7 main_v21 (broadcastInDim S4096 ![] bcast_S_S4096 : (⟨S_, .f32⟩ : BufTy).Contents (Elt F) → (⟨S4096, .f32⟩ : BufTy).Contents (Elt F)),
    nullary main_c_8 (constantI S_ 32 0#32),
    unary main_c_8 main_v22 (broadcastInDim S28311552 ![] bcast_S_S28311552 : (⟨S_, .i32⟩ : BufTy).Contents (Elt F) → (⟨S28311552, .i32⟩ : BufTy).Contents (Elt F)),
    binary main_v19 main_v22 main_v23 (cmpi .slt : (⟨S28311552, .i32⟩ : BufTy).Contents (Elt F) → (⟨S28311552, .i32⟩ : BufTy).Contents (Elt F) → (⟨S28311552, .i1⟩ : BufTy).Contents (Elt F)),
    nullary main_c_9 (constantI S_ 32 4096#32),
    unary main_c_9 main_v24 (broadcastInDim S28311552 ![] bcast_S_S28311552 : (⟨S_, .i32⟩ : BufTy).Contents (Elt F) → (⟨S28311552, .i32⟩ : BufTy).Contents (Elt F)),
    binary main_v19 main_v24 main_v25 (addi : (⟨S28311552, .i32⟩ : BufTy).Contents (Elt F) → (⟨S28311552, .i32⟩ : BufTy).Contents (Elt F) → (⟨S28311552, .i32⟩ : BufTy).Contents (Elt F)),
    ternary main_v23 main_v25 main_v19 main_v26 (select : (⟨S28311552, .i1⟩ : BufTy).Contents (Elt F) → (⟨S28311552, .i32⟩ : BufTy).Contents (Elt F) → (⟨S28311552, .i32⟩ : BufTy).Contents (Elt F) → (⟨S28311552, .i32⟩ : BufTy).Contents (Elt F)),
    unary main_v26 main_v27 (broadcastInDim S28311552x1 ![0] bcast_S28311552_S28311552x1_0 : (⟨S28311552, .i32⟩ : BufTy).Contents (Elt F) → (⟨S28311552x1, .i32⟩ : BufTy).Contents (Elt F)),
    ternary main_v21 main_v27 main_v20 main_v28 ((fun x i u => Host.scatterAdd (F := F) scatter_S4096_S28311552x1_S28311552_n_0_0_1 x i u) : (⟨S4096, .f32⟩ : BufTy).Contents (Elt F) → (⟨S28311552x1, .i32⟩ : BufTy).Contents (Elt F) → (⟨S28311552, .f32⟩ : BufTy).Contents (Elt F) → (⟨S4096, .f32⟩ : BufTy).Contents (Elt F)),
    reshape main_v28 main_v29 rfl shapeCasts_S4096_S64x64,
    nullary main_cst_10 (constant S_ .f32 0x00000000#32),
    binary main_v29 main_cst_10 main_v30 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    unary main_v30 main_v31 (broadcastInDim S64x64 ![] bcast_S_S64x64 : (⟨S_, .f32⟩ : BufTy).Contents (Elt F) → (⟨S64x64, .f32⟩ : BufTy).Contents (Elt F)),
    binary main_v29 main_v31 main_v32 (Host.divf : (⟨S64x64, .f32⟩ : BufTy).Contents (Elt F) → (⟨S64x64, .f32⟩ : BufTy).Contents (Elt F) → (⟨S64x64, .f32⟩ : BufTy).Contents (Elt F)),
    nullary main_cst_11 (constant S_ .f32 0x00000000#32),
    binary main_v32 main_cst_11 main_v33 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    nullary main_cst_12 (constant S_ .f32 0x00000000#32),
    binary main_v32 main_cst_12 main_v34 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    nullary main_cst_13 (constant S_ .f32 0x00000000#32),
    unary main_cst_13 main_v35 (broadcastInDim S64x64 ![] bcast_S_S64x64 : (⟨S_, .f32⟩ : BufTy).Contents (Elt F) → (⟨S64x64, .f32⟩ : BufTy).Contents (Elt F)),
    binary main_v32 main_v35 main_v36 (cmpf .une : (⟨S64x64, .f32⟩ : BufTy).Contents (Elt F) → (⟨S64x64, .f32⟩ : BufTy).Contents (Elt F) → (⟨S64x64, .i1⟩ : BufTy).Contents (Elt F)),
    nullary main_cst_14 (constant S_ .f32 0x3F800000#32),
    unary main_cst_14 main_v37 (broadcastInDim S64x64 ![] bcast_S_S64x64 : (⟨S_, .f32⟩ : BufTy).Contents (Elt F) → (⟨S64x64, .f32⟩ : BufTy).Contents (Elt F)),
    TRef.ternary (TRef.of (T := ⟨S64x64, .i1⟩) main_v36) (TRef.of (T := ⟨S64x64, .f32⟩) main_v32) (TRef.of (T := ⟨S64x64, .f32⟩) main_v37) (TRef.of (T := ⟨S64x64, .f32⟩) main_v38) select,
    unary main_v33 main_v39 (broadcastInDim S64x1 ![0] bcast_S64_S64x1_0 : (⟨S64, .f32⟩ : BufTy).Contents (Elt F) → (⟨S64x1, .f32⟩ : BufTy).Contents (Elt F)),
    unary main_v34 main_v40 (broadcastInDim S1x64 ![1] bcast_S64_S1x64_1 : (⟨S64, .f32⟩ : BufTy).Contents (Elt F) → (⟨S1x64, .f32⟩ : BufTy).Contents (Elt F)),
    unary main_v39 main_v41 (broadcastInDim S64x64 ![0, 1] bcast_S64x1_S64x64_0_1 : (⟨S64x1, .f32⟩ : BufTy).Contents (Elt F) → (⟨S64x64, .f32⟩ : BufTy).Contents (Elt F)),
    unary main_v40 main_v42 (broadcastInDim S64x64 ![0, 1] bcast_S1x64_S64x64_0_1 : (⟨S1x64, .f32⟩ : BufTy).Contents (Elt F) → (⟨S64x64, .f32⟩ : BufTy).Contents (Elt F)),
    binary main_v41 main_v42 main_v43 (mulf : (⟨S64x64, .f32⟩ : BufTy).Contents (Elt F) → (⟨S64x64, .f32⟩ : BufTy).Contents (Elt F) → (⟨S64x64, .f32⟩ : BufTy).Contents (Elt F)),
    nullary main_cst_15 (constant S_ .f32 0x358637BD#32),
    unary main_cst_15 main_v44 (broadcastInDim S64x64 ![] bcast_S_S64x64 : (⟨S_, .f32⟩ : BufTy).Contents (Elt F) → (⟨S64x64, .f32⟩ : BufTy).Contents (Elt F)),
    binary main_v43 main_v44 main_v45 (addf : (⟨S64x64, .f32⟩ : BufTy).Contents (Elt F) → (⟨S64x64, .f32⟩ : BufTy).Contents (Elt F) → (⟨S64x64, .f32⟩ : BufTy).Contents (Elt F)),
    binary main_v38 main_v45 main_v46 (Host.divf : (⟨S64x64, .f32⟩ : BufTy).Contents (Elt F) → (⟨S64x64, .f32⟩ : BufTy).Contents (Elt F) → (⟨S64x64, .f32⟩ : BufTy).Contents (Elt F)),
    unary main_v46 main_v47 (Host.log : (⟨S64x64, .f32⟩ : BufTy).Contents (Elt F) → (⟨S64x64, .f32⟩ : BufTy).Contents (Elt F)),
    nullary main_cst_16 (constant S_ .f32 0x40000000#32),
    unary main_cst_16 main_v48 (Host.log : (⟨S_, .f32⟩ : BufTy).Contents (Elt F) → (⟨S_, .f32⟩ : BufTy).Contents (Elt F)),
    unary main_v48 main_v49 (broadcastInDim S64x64 ![] bcast_S_S64x64 : (⟨S_, .f32⟩ : BufTy).Contents (Elt F) → (⟨S64x64, .f32⟩ : BufTy).Contents (Elt F)),
    binary main_v47 main_v49 main_v50 (Host.divf : (⟨S64x64, .f32⟩ : BufTy).Contents (Elt F) → (⟨S64x64, .f32⟩ : BufTy).Contents (Elt F) → (⟨S64x64, .f32⟩ : BufTy).Contents (Elt F)),
    binary main_v38 main_v50 main_v51 (mulf : (⟨S64x64, .f32⟩ : BufTy).Contents (Elt F) → (⟨S64x64, .f32⟩ : BufTy).Contents (Elt F) → (⟨S64x64, .f32⟩ : BufTy).Contents (Elt F)),
    nullary main_cst_17 (constant S_ .f32 0x00000000#32),
    binary main_v51 main_cst_17 main_v52 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_18 (constant S_ .f32 0x00000000#32),
    binary main_v29 main_cst_18 main_v53 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    nullary main_cst_19 (constant S_ .f32 0x00000000#32),
    binary main_v29 main_cst_19 main_v54 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    nullary main_cst_20 (constant S_ .f32 0x40000000#32),
    binary main_cst_20 main_v52 main_v55 (mulf : (⟨S_, .f32⟩ : BufTy).Contents (Elt F) → (⟨S_, .f32⟩ : BufTy).Contents (Elt F) → (⟨S_, .f32⟩ : BufTy).Contents (Elt F)),
    nullary main_cst_21 (constant S_ .f32 0x00000000#32),
    unary main_cst_21 main_v56 (broadcastInDim S64 ![] bcast_S_S64 : (⟨S_, .f32⟩ : BufTy).Contents (Elt F) → (⟨S64, .f32⟩ : BufTy).Contents (Elt F)),
    binary main_v53 main_v56 main_v57 (cmpf .une : (⟨S64, .f32⟩ : BufTy).Contents (Elt F) → (⟨S64, .f32⟩ : BufTy).Contents (Elt F) → (⟨S64, .i1⟩ : BufTy).Contents (Elt F)),
    nullary main_cst_22 (constant S_ .f32 0x3F800000#32),
    unary main_cst_22 main_v58 (broadcastInDim S64 ![] bcast_S_S64 : (⟨S_, .f32⟩ : BufTy).Contents (Elt F) → (⟨S64, .f32⟩ : BufTy).Contents (Elt F)),
    TRef.ternary (TRef.of (T := ⟨S64, .i1⟩) main_v57) (TRef.of (T := ⟨S64, .f32⟩) main_v53) (TRef.of (T := ⟨S64, .f32⟩) main_v58) (TRef.of (T := ⟨S64, .f32⟩) main_v59) select,
    unary main_v59 main_v60 (Host.log : (⟨S64, .f32⟩ : BufTy).Contents (Elt F) → (⟨S64, .f32⟩ : BufTy).Contents (Elt F)),
    nullary main_cst_23 (constant S_ .f32 0x40000000#32),
    unary main_cst_23 main_v61 (Host.log : (⟨S_, .f32⟩ : BufTy).Contents (Elt F) → (⟨S_, .f32⟩ : BufTy).Contents (Elt F)),
    unary main_v61 main_v62 (broadcastInDim S64 ![] bcast_S_S64 : (⟨S_, .f32⟩ : BufTy).Contents (Elt F) → (⟨S64, .f32⟩ : BufTy).Contents (Elt F)),
    binary main_v60 main_v62 main_v63 (Host.divf : (⟨S64, .f32⟩ : BufTy).Contents (Elt F) → (⟨S64, .f32⟩ : BufTy).Contents (Elt F) → (⟨S64, .f32⟩ : BufTy).Contents (Elt F)),
    binary main_v59 main_v63 main_v64 (mulf : (⟨S64, .f32⟩ : BufTy).Contents (Elt F) → (⟨S64, .f32⟩ : BufTy).Contents (Elt F) → (⟨S64, .f32⟩ : BufTy).Contents (Elt F)),
    nullary main_cst_24 (constant S_ .f32 0x00000000#32),
    binary main_v64 main_cst_24 main_v65 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v65 main_v66 (Host.negf : (⟨S_, .f32⟩ : BufTy).Contents (Elt F) → (⟨S_, .f32⟩ : BufTy).Contents (Elt F)),
    nullary main_cst_25 (constant S_ .f32 0x00000000#32),
    unary main_cst_25 main_v67 (broadcastInDim S64 ![] bcast_S_S64 : (⟨S_, .f32⟩ : BufTy).Contents (Elt F) → (⟨S64, .f32⟩ : BufTy).Contents (Elt F)),
    binary main_v54 main_v67 main_v68 (cmpf .une : (⟨S64, .f32⟩ : BufTy).Contents (Elt F) → (⟨S64, .f32⟩ : BufTy).Contents (Elt F) → (⟨S64, .i1⟩ : BufTy).Contents (Elt F)),
    nullary main_cst_26 (constant S_ .f32 0x3F800000#32),
    unary main_cst_26 main_v69 (broadcastInDim S64 ![] bcast_S_S64 : (⟨S_, .f32⟩ : BufTy).Contents (Elt F) → (⟨S64, .f32⟩ : BufTy).Contents (Elt F)),
    TRef.ternary (TRef.of (T := ⟨S64, .i1⟩) main_v68) (TRef.of (T := ⟨S64, .f32⟩) main_v54) (TRef.of (T := ⟨S64, .f32⟩) main_v69) (TRef.of (T := ⟨S64, .f32⟩) main_v70) select,
    unary main_v70 main_v71 (Host.log : (⟨S64, .f32⟩ : BufTy).Contents (Elt F) → (⟨S64, .f32⟩ : BufTy).Contents (Elt F)),
    nullary main_cst_27 (constant S_ .f32 0x40000000#32),
    unary main_cst_27 main_v72 (Host.log : (⟨S_, .f32⟩ : BufTy).Contents (Elt F) → (⟨S_, .f32⟩ : BufTy).Contents (Elt F)),
    unary main_v72 main_v73 (broadcastInDim S64 ![] bcast_S_S64 : (⟨S_, .f32⟩ : BufTy).Contents (Elt F) → (⟨S64, .f32⟩ : BufTy).Contents (Elt F)),
    binary main_v71 main_v73 main_v74 (Host.divf : (⟨S64, .f32⟩ : BufTy).Contents (Elt F) → (⟨S64, .f32⟩ : BufTy).Contents (Elt F) → (⟨S64, .f32⟩ : BufTy).Contents (Elt F)),
    binary main_v70 main_v74 main_v75 (mulf : (⟨S64, .f32⟩ : BufTy).Contents (Elt F) → (⟨S64, .f32⟩ : BufTy).Contents (Elt F) → (⟨S64, .f32⟩ : BufTy).Contents (Elt F)),
    nullary main_cst_28 (constant S_ .f32 0x00000000#32),
    binary main_v75 main_cst_28 main_v76 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v76 main_v77 (Host.negf : (⟨S_, .f32⟩ : BufTy).Contents (Elt F) → (⟨S_, .f32⟩ : BufTy).Contents (Elt F)),
    binary main_v66 main_v77 main_v78 (addf : (⟨S_, .f32⟩ : BufTy).Contents (Elt F) → (⟨S_, .f32⟩ : BufTy).Contents (Elt F) → (⟨S_, .f32⟩ : BufTy).Contents (Elt F)),
    nullary main_cst_29 (constant S_ .f32 0x358637BD#32),
    binary main_v78 main_cst_29 main_v79 (addf : (⟨S_, .f32⟩ : BufTy).Contents (Elt F) → (⟨S_, .f32⟩ : BufTy).Contents (Elt F) → (⟨S_, .f32⟩ : BufTy).Contents (Elt F)),
    binary main_v55 main_v79 main_v80 (Host.divf : (⟨S_, .f32⟩ : BufTy).Contents (Elt F) → (⟨S_, .f32⟩ : BufTy).Contents (Elt F) → (⟨S_, .f32⟩ : BufTy).Contents (Elt F)),
    unary main_v80 main_v81 (Host.negf : (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., unary_bufs_sub .., ternary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., reshape_bufs_sub .., nullary_bufs_sub .., binary_bufs_sub .., unary_bufs_sub .., binary_bufs_sub .., nullary_bufs_sub .., binary_bufs_sub .., nullary_bufs_sub .., binary_bufs_sub .., nullary_bufs_sub .., unary_bufs_sub .., binary_bufs_sub .., nullary_bufs_sub .., unary_bufs_sub .., ternary_bufs_sub .., unary_bufs_sub .., unary_bufs_sub .., unary_bufs_sub .., unary_bufs_sub .., binary_bufs_sub .., nullary_bufs_sub .., unary_bufs_sub .., binary_bufs_sub .., binary_bufs_sub .., unary_bufs_sub .., nullary_bufs_sub .., unary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., binary_bufs_sub .., nullary_bufs_sub .., unary_bufs_sub .., ternary_bufs_sub .., unary_bufs_sub .., nullary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., ternary_bufs_sub .., unary_bufs_sub .., nullary_bufs_sub .., unary_bufs_sub .., unary_bufs_sub .., binary_bufs_sub .., binary_bufs_sub .., nullary_bufs_sub .., binary_bufs_sub .., unary_bufs_sub .., binary_bufs_sub .., nullary_bufs_sub .., binary_bufs_sub .., binary_bufs_sub .., unary_bufs_sub ..⟩

set_option maxRecDepth 8192 in
/-- The score as one term of the two images: the reference's operations composed. -/
def res_main_v81 (m : (ℓ : Loc nD τ sig) → Buf (Elt F) ℓ) (c : Dev nD) : Buf (Elt F) ((c.tc : Thread nD τ).loc main_v81) :=
  Host.negf (Host.divf (mulf (constant S_ .f32 0x40000000#32) (Host.reduceAdd (mulf (select (cmpf .une (Host.divf (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (broadcastInDim S64x64 ![] bcast_S_S64x64 (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S_d0_1 h_S_))) (broadcastInDim S64x64 ![] bcast_S_S64x64 (constant S_ .f32 0x00000000#32))) (Host.divf (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (broadcastInDim S64x64 ![] bcast_S_S64x64 (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S_d0_1 h_S_))) (broadcastInDim S64x64 ![] bcast_S_S64x64 (constant S_ .f32 0x3F800000#32))) (Host.divf (Host.log (Host.divf (select (cmpf .une (Host.divf (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (broadcastInDim S64x64 ![] bcast_S_S64x64 (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S_d0_1 h_S_))) (broadcastInDim S64x64 ![] bcast_S_S64x64 (constant S_ .f32 0x00000000#32))) (Host.divf (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (broadcastInDim S64x64 ![] bcast_S_S64x64 (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S_d0_1 h_S_))) (broadcastInDim S64x64 ![] bcast_S_S64x64 (constant S_ .f32 0x3F800000#32))) (addf (mulf (broadcastInDim S64x64 ![0, 1] bcast_S64x1_S64x64_0_1 (broadcastInDim S64x1 ![0] bcast_S64_S64x1_0 (Host.reduceAdd (Host.divf (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (broadcastInDim S64x64 ![] bcast_S_S64x64 (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S_d0_1 h_S_))) (constant S_ .f32 0x00000000#32) reducesTo_S64x64_S64_d1 h_S_))) (broadcastInDim S64x64 ![0, 1] bcast_S1x64_S64x64_0_1 (broadcastInDim S1x64 ![1] bcast_S64_S1x64_1 (Host.reduceAdd (Host.divf (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (broadcastInDim S64x64 ![] bcast_S_S64x64 (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S_d0_1 h_S_))) (constant S_ .f32 0x00000000#32) reducesTo_S64x64_S64_d0 h_S_)))) (broadcastInDim S64x64 ![] bcast_S_S64x64 (constant S_ .f32 0x358637BD#32))))) (broadcastInDim S64x64 ![] bcast_S_S64x64 (Host.log (constant S_ .f32 0x40000000#32))))) (constant S_ .f32 0x00000000#32) reducesTo_S64x64_S_d0_1 h_S_)) (addf (addf (Host.negf (Host.reduceAdd (mulf (select (cmpf .une (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S64_d1 h_S_) (broadcastInDim S64 ![] bcast_S_S64 (constant S_ .f32 0x00000000#32))) (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S64_d1 h_S_) (broadcastInDim S64 ![] bcast_S_S64 (constant S_ .f32 0x3F800000#32))) (Host.divf (Host.log (select (cmpf .une (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S64_d1 h_S_) (broadcastInDim S64 ![] bcast_S_S64 (constant S_ .f32 0x00000000#32))) (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S64_d1 h_S_) (broadcastInDim S64 ![] bcast_S_S64 (constant S_ .f32 0x3F800000#32)))) (broadcastInDim S64 ![] bcast_S_S64 (Host.log (constant S_ .f32 0x40000000#32))))) (constant S_ .f32 0x00000000#32) reducesTo_S64_S_d0 h_S_)) (Host.negf (Host.reduceAdd (mulf (select (cmpf .une (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S64_d0 h_S_) (broadcastInDim S64 ![] bcast_S_S64 (constant S_ .f32 0x00000000#32))) (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S64_d0 h_S_) (broadcastInDim S64 ![] bcast_S_S64 (constant S_ .f32 0x3F800000#32))) (Host.divf (Host.log (select (cmpf .une (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S64_d0 h_S_) (broadcastInDim S64 ![] bcast_S_S64 (constant S_ .f32 0x00000000#32))) (Host.reduceAdd (shapeCast _ (Host.scatterAdd (F := F) scatter_S4096_S28311552x1_S28311552_n_0_0_1 (broadcastInDim S4096 ![] bcast_S_S4096 (constant S_ .f32 0x00000000#32)) (broadcastInDim S28311552x1 ![0] bcast_S28311552_S28311552x1_0 (select (cmpi .slt (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 0#32))) (addi (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))) (broadcastInDim S28311552 ![] bcast_S_S28311552 (constantI S_ 32 4096#32))) (minsi (broadcastInDim S28311552 ![] bcast_S_S28311552 (id (constantI S_ 32 4095#32))) (maxsi (broadcastInDim S28311552 ![] bcast_S_S28311552 (id (constantI S_ 32 0#32))) (select (cmpf .oeq (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32))) (broadcastInDim S28311552 ![] bcast_S_S28311552 (id (constantI S_ 32 4095#32))) (fptosi 32 (Host.floor (Host.divf (subf (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (broadcastInDim S28311552 ![] bcast_S_S28311552 (constant S_ .f32 0x39800000#32)))))))))) (uitofp .f32 (andi (cmpf .oge (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x00000000#32))) (cmpf .ole (addf (mulf (shapeCast _ (m ((c.tc : Thread nD τ).loc main_arg0)) shapeCasts_S4x192x192x192_S28311552) (broadcastInDim S28311552 ![] bcast_S_S28311552 (constant S_ .f32 0x3F800000#32))) (shapeCast _ (m ((c.tc : Thread nD τ).loc main_arg1)) shapeCasts_S4x192x192x192_S28311552)) (broadcastInDim S28311552 ![] bcast_S_S28311552 (constant S_ .f32 0x3F800000#32)))))) shapeCasts_S4096_S64x64) (constant S_ .f32 0x00000000#32) reducesTo_S64x64_S64_d0 h_S_) (broadcastInDim S64 ![] bcast_S_S64 (constant S_ .f32 0x3F800000#32)))) (broadcastInDim S64 ![] bcast_S_S64 (Host.log (constant S_ .f32 0x40000000#32))))) (constant S_ .f32 0x00000000#32) reducesTo_S64_S_d0 h_S_))) (constant S_ .f32 0x358637BD#32)))

set_option maxRecDepth 8192 in
set_option maxHeartbeats 48400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = res_main_v81 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v81).trans (by after_results_simp <;> rfl <;> (unfold res_main_v81; rfl)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Value

end
-- ==== Proof.FrameKI.Pieces.lean ====
/-
  What the accumulator and the output block hold after the body, as values. Each of the 32 trips of the loop stores,
  through the accumulator's whole rectangle, the accumulator it found plus the chunk's 64x64 table (row one-hot times
  column one-hot); a store through the whole rectangle leaves its payload whatever was there, so after k trips the
  accumulator is the k-fold of that step over what the loop found.
-/
import proofs.«127204_j17566416241189_2_alg».proof.Proof.FrameKI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Reading back after a last store through the whole rectangle: its payload. -/
theorem read_writes_unit_zero {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  refine (View.read_writes_eq_canon v f _ (fun y => ⟨_, List.mem_cons_self, ?_⟩)).trans (View.canon_cons_unit_zero rfl _ w L)
  show y ∈ (Rect.whole S).set
  rw [Rect.set_whole]; exact Finset.mem_univ y

/-- Chunk `k` of a block: the 8192 elements from 8192·k on. -/
def chunkAt (x : Vec F S262144 .f32) (k : Fin k0_t1_loop.trips) : Vec F S8192 .f32 :=
  View.ld x (Rect.unit (s := S262144) (k0_off1 k) S8192.size (k0_off1_inb k))

/-- One trip: the accumulator plus the chunk's table. -/
def stepAcc (v3 : IVec S64x8192 32) (v4 : IVec S8192x64 32) (x0 x1 : Vec F S262144 .f32) (k : Fin k0_t1_loop.trips)
    (acc : Vec F S64x64 .f32) : Vec F S64x64 .f32 :=
  k0_pay2 (k0_pay5 v3 (chunkAt x0 k) (chunkAt x1 k)) (k0_pay6 v4 (chunkAt x0 k) (chunkAt x1 k)) acc

/-- The first `k` trips from `acc`. -/
def foldAcc (v3 : IVec S64x8192 32) (v4 : IVec S8192x64 32) (x0 x1 : Vec F S262144 .f32) (acc : Vec F S64x64 .f32) : ℕ → Vec F S64x64 .f32
  | 0 => acc
  | k + 1 => if h : k < k0_t1_loop.trips then stepAcc v3 v4 x0 x1 ⟨k, h⟩ (foldAcc v3 v4 x0 x1 acc k) else foldAcc v3 v4 x0 x1 acc k

theorem foldAcc_succ (v3 : IVec S64x8192 32) (v4 : IVec S8192x64 32) (x0 x1 : Vec F S262144 .f32) (acc : Vec F S64x64 .f32)
    (k : ℕ) (h : k < k0_t1_loop.trips) :
    foldAcc v3 v4 x0 x1 acc (k + 1) = stepAcc v3 v4 x0 x1 ⟨k, h⟩ (foldAcc v3 v4 x0 x1 acc k) := by
  rw [foldAcc]; exact dif_pos h

/-- The pieces of the trips before `k`, written over `G` and read back: the `k`-fold over what `G` held. -/
theorem pb_read (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (v3 : IVec S64x8192 32) (v4 : IVec S8192x64 32) (x0 x1 : Vec F S262144 .f32)
    (G : BufTy.Contents (Elt F) arg5.view.ty) : ∀ k : ℕ,
    arg5.view.read (Elt F) (arg5.view.writes (Elt F) G (pb_k0_t1 (F := F) Variants.none c none i arg2 harg2 arg3 harg3 arg4 harg4 arg5 harg5 v3 v4 (harg2.unread x0) (harg3.unread x1) G k))
      = foldAcc v3 v4 x0 x1 (arg5.view.read (Elt F) G) k
  | 0 => rfl
  | k + 1 => by
    rw [pb_k0_t1.eq_2]; unfold pb_k0_t1Step
    by_cases h : k < k0_t1_loop.trips
    · rw [dif_pos h, View.writes_append, foldAcc_succ _ _ _ _ _ _ h]
      unfold tripL_k0_t1 trip_k0_t1
      dsimp only
      sl_unfold_words
      rw [read_writes_unit_zero _ _ hz2]
      unfold stepAcc chunkAt
      simp only [View.readAt_eq_ld, harg2.read_unread, harg3.read_unread, View.ld_unit_zero (S := S64x64) hz2]
      rw [pb_read c i arg2 harg2 arg3 harg3 arg4 harg4 arg5 harg5 v3 v4 x0 x1 G k]
      rfl
    · rw [dif_neg h, foldAcc, dif_neg h]
      exact pb_read c i arg2 harg2 arg3 harg3 arg4 harg4 arg5 harg5 v3 v4 x0 x1 G k

/-- The two index tables the body builds before the loop. -/
abbrev rowIota : IVec S64x8192 32 := iota .tc S64x8192 32 [0] iota_S64x8192_d0_w32
abbrev colIota : IVec S8192x64 32 := iota .tc S8192x64 32 [1] iota_S8192x64_d1_w32

/-- A whole step of the grid from the accumulator `acc`: the block's 32 chunks added. -/
def blockAcc (x0 x1 : Vec F S262144 .f32) (acc : Vec F S64x64 .f32) : Vec F S64x64 .f32 :=
  foldAcc rowIota colIota x0 x1 acc k0_t1_loop.trips

theorem sout_B (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : ¬cond0_1 i) (x0 : Vec F S262144 .f32) (x1 : Vec F S262144 .f32) (xs0 : Vec F S64x64 .f32) :
    sout0_B_0 c i arg2 harg2 arg3 harg3 arg4 harg4 arg5 harg5 hc0 hc1 x0 x1 xs0 = blockAcc x0 x1 xs0 := by
  unfold sout0_B_0
  rw [View.read_writes_of_cover VS0_0 VS0_0.junk arg5.view (harg5.unread xs0) _ (scover0_B_0 c i arg2 harg2 arg3 harg3 arg4 harg4 arg5 harg5 hc0 hc1 x0 x1 xs0)]
  unfold kernelRun0_B
  dsimp only
  sl_unfold_words
  rw [pb_read, harg5.read_unread]
  rfl

theorem sout_C (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i) (x0 : Vec F S262144 .f32) (x1 : Vec F S262144 .f32) (xs0 : Vec F S64x64 .f32) :
    sout0_C_0 c i arg2 harg2 arg3 harg3 arg4 harg4 arg5 harg5 hc0 hc1 x0 x1 xs0 = blockAcc x0 x1 xs0 := by
  unfold sout0_C_0
  rw [View.read_writes_of_cover VS0_0 VS0_0.junk arg5.view (harg5.unread xs0) _ (scover0_C_0 c i arg2 harg2 arg3 harg3 arg4 harg4 arg5 harg5 hc0 hc1 x0 x1 xs0)]
  unfold kernelRun0_C
  dsimp only
  sl_unfold_words
  rw [pb_read, harg5.read_unread]
  rfl

theorem out_C (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : ¬cond0_0 i) (hc1 : cond0_1 i) (x0 : Vec F S262144 .f32) (x1 : Vec F S262144 .f32) (xs0 : Vec F S64x64 .f32) :
    out0_C_2 c i arg2 harg2 arg3 harg3 arg4 harg4 arg5 harg5 hc0 hc1 x0 x1 xs0 = k0_pay3 (blockAcc x0 x1 xs0) := by
  unfold out0_C_2
  unfold kernelRun0_C
  dsimp only
  sl_unfold_words
  rw [read_writes_unit_zero _ _ hz3]
  simp only [View.readAt_eq_ld, View.ld_unit_zero (S := S64x64) hz2]
  rw [pb_read, harg5.read_unread]
  rfl

theorem sout_A (c : Dev nD) (i : grid0.Coords) (arg2 : Memref sig .tc .vmem S262144 .f32) (harg2 : arg2.IsWhole) (arg3 : Memref sig .tc .vmem S262144 .f32) (harg3 : arg3.IsWhole) (arg4 : Memref sig .tc .vmem S1x64x64 .f32) (harg4 : arg4.IsWhole) (arg5 : Memref sig .tc .vmem S64x64 .f32) (harg5 : arg5.IsWhole) (hc0 : cond0_0 i) (hc1 : ¬cond0_1 i) (x0 : Vec F S262144 .f32) (x1 : Vec F S262144 .f32) :
    sout0_A_0 c i arg2 harg2 arg3 harg3 arg4 harg4 arg5 harg5 hc0 hc1 x0 x1 = blockAcc x0 x1 (k0_pay1 (F := F)) := by
  unfold sout0_A_0
  rw [View.read_writes_of_cover VS0_0 VS0_0.junk arg5.view arg5.view.junk _ (scover0_A_0 c i arg2 harg2 arg3 harg3 arg4 harg4 arg5 harg5 hc0 hc1 x0 x1)]
  unfold kernelRun0_A
  dsimp only
  sl_unfold_words
  rw [View.writes_append, pb_read, read_writes_unit_zero _ _ hz2]
  rfl

end Cert.KernelIdeal.Hand

end
-- ==== Proof.ChunkHist.lean ====
/-
  The kernel's per-chunk arithmetic read at an index (all at the ideal instance: a float is an
  extended real, every operation exact, a change of format the identity).

  For one element with inputs `a`, `b` put `v = a * 1 + b`. The kernel's bin word is
  `clamp(select(v = 1, 4095, fptosi ⌊(v - 0) * 4096⌋), 0, 4095)` when `0 ≤ v ≤ 1`, and the word
  `-1` otherwise (`kerBin`). Its row is the word shifted right arithmetically by 6, its column the
  word's low six bits. A chunk of 8192 elements contributes to the 64 × 64 histogram the product of
  the row one-hot matrix (64 × 8192) and the column one-hot matrix (8192 × 64): entry `(r, c)`
  gains the number of elements whose row is `r` and column is `c` (`pay2_apply`).
-/
import proofs.«127204_j17566416241189_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerChunk

open Idealize.ShloMosaic Idealize.SL.Sem Idealize.ShloMosaic.ValueIdx
open Cert.KernelIdeal Cert.KernelIdeal.Gen

/-- The kernel's bin word of one element with inputs `a`, `b`: with `v = a * 1 + b`, the clamped
    bin `min 4095 (max 0 (if v = 1 then 4095 else fptosi ⌊(v - 0) * 4096⌋))` when `0 ≤ v ≤ 1`, the
    word `-1` otherwise. -/
def kerBin (a b : EReal) : BitVec 32 :=
  let v : Ideal .f32 := FloatOps.addf (F := Ideal) (φ := .f32) (FloatOps.mulf (F := Ideal) (φ := .f32) a (Scalar.ofBits (F := Ideal) .f32 0x3F800000#32)) b
  let inRange : BitVec 1 :=
    IntOp.andi (FloatOps.cmpf (F := Ideal) (φ := .f32) .oge v (Scalar.ofBits (F := Ideal) .f32 0x00000000#32))
      (FloatOps.cmpf (F := Ideal) (φ := .f32) .ole v (Scalar.ofBits (F := Ideal) .f32 0x3F800000#32))
  let raw : BitVec 32 :=
    FloatOps.fptosi (F := Ideal) (φ := .f32) 32
      (FloatOps.floor (F := Ideal) (φ := .f32)
        (FloatOps.mulf (F := Ideal) (φ := .f32)
          (FloatOps.subf (F := Ideal) (φ := .f32) v (Scalar.ofBits (F := Ideal) .f32 0x00000000#32))
          (Scalar.ofBits (F := Ideal) .f32 0x45800000#32)))
  let sel : BitVec 32 :=
    Scalar.select (FloatOps.cmpf (F := Ideal) (φ := .f32) .oeq v (Scalar.ofBits (F := Ideal) .f32 0x3F800000#32)) 4095#32 raw
  Scalar.select inRange (IntOp.minsi 4095#32 (IntOp.maxsi 0#32 sel)) 4294967295#32

/-- The bin-word payload at element `e` of a chunk is `kerBin` of the two inputs there. -/
theorem pay4_apply (x y : Vec Ideal S8192 .f32) (e : Fin 8192) :
    Gen.k0_pay4 (F := Ideal) x y (ix1 e) = kerBin (x (ix1 e)) (y (ix1 e)) := by
  unfold Gen.k0_pay4
  simp only [shapeCast_self]
  rfl

/-! ## Small facts on words and layouts -/

/-- On 32-bit lanes an arithmetic shift right by the literal 6 is `sshiftRight 6`. -/
theorem shrsi_six (w : BitVec 32) : IntOp.shrsi .vector w 6#32 = w.sshiftRight 6 := by
  unfold IntOp.shrsi
  rw [if_pos (by decide)]
  rfl

/-- An equality test's bit, widened to 32 bits and converted as a signed integer, is `1` or `0`. -/
theorem sitofp_extui_cmpi_eq (p q : BitVec 32) :
    FloatOps.sitofp (F := Ideal) .f32 ((IntOp.cmpi .eq p q).setWidth 32) = if q = p then (1 : EReal) else 0 := by
  show (((((IntOp.cmpi .eq p q).setWidth 32).toInt : ℝ)) : EReal) = _
  unfold IntOp.cmpi
  by_cases h : q = p
  · subst h
    simp
  · have hb : (p == q) = false := beq_eq_false_iff_ne.mpr fun e => h e.symm
    simp [h, hb]

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two one-hot payloads at an index -/

/-- The row one-hot payload at `(r, e)`: `1` when element `e`'s bin word shifted right by 6 is `r`. -/
theorem pay5_apply (x y : Vec Ideal S8192 .f32) (r : Fin 64) (e : Fin 8192) :
    Gen.k0_pay5 (F := Ideal) (iota .tc S64x8192 32 [0] iota_S64x8192_d0_w32) x y (ix2 r e)
      = if (kerBin (x (ix1 e)) (y (ix1 e))).sshiftRight 6 = BitVec.ofNat 32 r.val then (1 : EReal) else 0 := by
  unfold Gen.k0_pay5
  dsimp only
  rw [truncf_apply, sitofp_apply, extui_apply]
  show FloatOps.sitofp (F := Ideal) .f32 ((IntOp.cmpi .eq (iota .tc S64x8192 32 [0] iota_S64x8192_d0_w32 (ix2 r e))
    (broadcastTo S64x8192 (shapeCast S1x8192 (shrsi (Gen.k0_pay4 x y) (broadcast S8192 6#32)) shapeCasts_S8192_S1x8192)
      broadcasts_S1x8192_S64x8192 (ix2 r e))).setWidth 32) = _
  rw [sitofp_extui_cmpi_eq, iota_single_apply, broadcastTo_1b_ab_apply, shapeCast_a_1a_apply]
  show (if IntOp.shrsi .vector (Gen.k0_pay4 x y (ix1 e)) 6#32 = BitVec.ofNat 32 r.val then (1 : EReal) else 0) = _
  rw [shrsi_six, pay4_apply]

/-- The column one-hot payload at `(e, c)`: the word `1` when element `e`'s bin word's low six bits are `c`. -/
theorem pay6_apply (x y : Vec Ideal S8192 .f32) (e : Fin 8192) (c : Fin 64) :
    FloatOps.sitofp (F := Ideal) .f32
        (Gen.k0_pay6 (F := Ideal) (iota .tc S8192x64 32 [1] iota_S8192x64_d1_w32) x y (ix2 e c))
      = if (kerBin (x (ix1 e)) (y (ix1 e))) &&& 63#32 = BitVec.ofNat 32 c.val then (1 : EReal) else 0 := by
  unfold Gen.k0_pay6
  dsimp only
  rw [extui_apply]
  show FloatOps.sitofp (F := Ideal) .f32 ((IntOp.cmpi .eq (iota .tc S8192x64 32 [1] iota_S8192x64_d1_w32 (ix2 e c))
    (broadcastTo S8192x64 (shapeCast S8192x1 (andi (Gen.k0_pay4 x y) (broadcast S8192 63#32)) shapeCasts_S8192_S8192x1)
      broadcasts_S8192x1_S8192x64 (ix2 e c))).setWidth 32) = _
  rw [sitofp_extui_cmpi_eq, iota_single_apply, broadcastTo_a1_ab_apply, shapeCast_a_a1_apply]
  show (if IntOp.andi (Gen.k0_pay4 x y (ix1 e)) 63#32 = BitVec.ofNat 32 c.val then (1 : EReal) else 0) = _
  rw [pay4_apply]
  rfl

/-! ## The matrix product at an index -/

/-- The kernel's dimension numbers: `[64, 8192] × [8192, 64] → [64, 64]`, one contracted axis of extent 8192. -/
abbrev D : DotDims S64x8192 S8192x64 S64x64 := dot_S64x8192_S8192x64_S64x64_1_0_0_1_n_n

theorem lhs_0 (i : S64x64.Idx) (q : D.contr.Idx) : (D.lhsIdx i q 0).val = (i 0).val := by
  unfold DotDims.lhsIdx
  rw [dif_neg (show ¬(0 : Fin S64x8192.rank) ∈ D.lhsBatch by decide),
    dif_pos (show (0 : Fin S64x8192.rank) ∈ D.lhsNonContracting by decide)]
  rfl
theorem lhs_1 (i : S64x64.Idx) (q : D.contr.Idx) : (D.lhsIdx i q 1).val = (q ⟨0, by decide⟩).val :=
  D.lhsIdx_val_of_single rfl i q
theorem rhs_0 (i : S64x64.Idx) (q : D.contr.Idx) : (D.rhsIdx i q 0).val = (q ⟨0, by decide⟩).val :=
  D.rhsIdx_val_of_single rfl i q
theorem rhs_1 (i : S64x64.Idx) (q : D.contr.Idx) : (D.rhsIdx i q 1).val = (i 1).val := by
  unfold DotDims.rhsIdx
  rw [dif_neg (show ¬(1 : Fin S8192x64.rank) ∈ D.rhsBatch by decide),
    dif_pos (show (1 : Fin S8192x64.rank) ∈ D.rhsNonContracting by decide)]
  rfl

/-- Whether element `(a, b)` of a chunk lands in bin `(r, c)`, as `1` or `0`: its bin word's row (the word
    shifted right arithmetically by 6) is `r` and its column (the low six bits) is `c`. -/
def kerHit (r c : Fin 64) (a b : EReal) : EReal :=
  if (kerBin a b).sshiftRight 6 = BitVec.ofNat 32 r.val ∧ (kerBin a b) &&& 63#32 = BitVec.ofNat 32 c.val then 1 else 0

/-- The product of two indicators is the indicator of the conjunction. -/
theorem ite_mul_ite (P Q : Prop) [Decidable P] [Decidable Q] :
    (if P then (1 : EReal) else 0) * (if Q then (1 : EReal) else 0) = if P ∧ Q then 1 else 0 := by
  by_cases hP : P <;> by_cases hQ : Q <;> simp [hP, hQ]

/-- ONE CHUNK'S UPDATE AT A BIN: the accumulator there plus the number of the chunk's elements that land in it. -/
theorem pay2_apply (x y : Vec Ideal S8192 .f32) (acc : Vec Ideal S64x64 .f32) (r c : Fin 64) :
    Gen.k0_pay2 (F := Ideal) (Gen.k0_pay5 (F := Ideal) (iota .tc S64x8192 32 [0] iota_S64x8192_d0_w32) x y)
        (Gen.k0_pay6 (F := Ideal) (iota .tc S8192x64 32 [1] iota_S8192x64_d1_w32) x y) acc (ix2 r c)
      = acc (ix2 r c) + ∑ e : Fin 8192, kerHit r c (x (ix1 e)) (y (ix1 e)) := by
  unfold Gen.k0_pay2
  dsimp only
  rw [shapeCast_self, addf_apply]
  refine congrArg (fun t : EReal => acc (ix2 r c) + t) ?_
  simp only [matmul]
  rw [Ideal.matmul_constant_zero_apply, ← Equiv.sum_comp (contrEquiv1 D 8192 rfl rfl).symm]
  refine Finset.sum_congr rfl fun e _ => ?_
  have hk := contrEquiv1_symm_val D 8192 rfl rfl e
  have el : D.lhsIdx (ix2 r c) ((contrEquiv1 D 8192 rfl rfl).symm e) = ix2 r e := funext fun a => Fin.ext (by
    match a with
    | ⟨0, _⟩ => exact lhs_0 _ _
    | ⟨1, _⟩ => exact (lhs_1 _ _).trans hk)
  have er : D.rhsIdx (ix2 r c) ((contrEquiv1 D 8192 rfl rfl).symm e) = ix2 e c := funext fun a => Fin.ext (by
    match a with
    | ⟨0, _⟩ => exact (rhs_0 _ _).trans hk
    | ⟨1, _⟩ => exact rhs_1 _ _)
  rw [el, er, truncf_apply, sitofp_apply, pay5_apply, pay6_apply, ite_mul_ite]
  rfl

end Cert.KerChunk

end
-- ==== Proof.BinWord.lean ====
/-
  Row and column of a histogram bin word (pure 32-bit word arithmetic).

  A bin word `w` with `0 ≤ w < 4096` splits as `w = 64 * r + c` with `r = w >> 6` (the
  arithmetic shift agrees with the logical one on a non-negative word) and `c = w & 63`; so the
  pair (row is `r`, column is `c`) holds exactly when `w = 64 * r + c`. The out-of-range marker,
  the word `-1`, has row `-1 >> 6 = -1`, which is no `r < 64`.
-/

namespace Cert.KerChunk

/-- For a bin word below 4096, "row `r` and column `c`" says the word is `64 * r + c`. -/
theorem bin_rc_iff (w : BitVec 32) (hw : w.toNat < 4096) (r c : Fin 64) :
    (w.sshiftRight 6 = BitVec.ofNat 32 r.val ∧ w &&& 63#32 = BitVec.ofNat 32 c.val) ↔
      w.toNat = 64 * r.val + c.val := by
  have hmsb : w.msb = false := BitVec.msb_eq_false_iff_two_mul_lt.mpr (by omega)
  have h63 : w.toNat &&& 63 = w.toNat % 64 := Nat.and_two_pow_sub_one_eq_mod w.toNat 6
  have hr := r.isLt
  have hc := c.isLt
  rw [BitVec.sshiftRight_eq_of_msb_false hmsb, BitVec.toNat_eq, BitVec.toNat_eq (x := w &&& 63#32)]
  rw [BitVec.toNat_ushiftRight, BitVec.toNat_and, BitVec.toNat_ofNat, BitVec.toNat_ofNat, BitVec.toNat_ofNat,
    Nat.shiftRight_eq_div_pow]
  show (w.toNat / 64 = r.val % 4294967296 ∧ w.toNat &&& 63 = c.val % 4294967296) ↔ _
  rw [h63]
  omega

/-- The word `-1` shifted right arithmetically by 6 is `-1`. -/
theorem neg_one_sshiftRight_six : (4294967295#32).sshiftRight 6 = 4294967295#32 := by decide

/-- The out-of-range marker `-1` has no row below 64. -/
theorem neg_one_not_rc (r c : Fin 64) :
    ¬ ((4294967295#32).sshiftRight 6 = BitVec.ofNat 32 r.val ∧ (4294967295#32) &&& 63#32 = BitVec.ofNat 32 c.val) := by
  rintro ⟨h, -⟩
  rw [neg_one_sshiftRight_six, BitVec.toNat_eq, BitVec.toNat_ofNat] at h
  have hr := r.isLt
  have h' : (4294967295 : Nat) = r.val % 4294967296 := h
  omega

end Cert.KerChunk
-- ==== Proof.RefScalar.lean ====
/-
  The reference's per-element bin word and weight as scalar functions of the two input elements
  `a = x[n]`, `b = y[n]` (extended reals, every operation exact).

  `v = a * 1 + b`.  The weight is `1` when `0 ≤ v ≤ 1` and `0` otherwise.  The bin word is
  `⌊(v - 0) / 2^-12⌋` converted to a signed 32-bit word, replaced by `4095` when `v = 1`, clipped into
  `[0, 4095]`, and then normalised as an index (a negative word would have `4096` added: after the clip
  none is negative, so the normalisation is the identity).  Hence the bin word is always in `[0, 4095]`.
-/
import Idealize.ShloMosaic.PureOps.Ideal
import Idealize.ShloMosaic.PureOps.Ideal.Laws

noncomputable section

namespace Cert.RefSide

open Idealize.ShloMosaic

/-- `v = a * 1 + b`. -/
def refV (a b : EReal) : EReal :=
  FloatOps.addf (F := Ideal) (φ := .f32)
    (FloatOps.mulf (F := Ideal) (φ := .f32) a (FloatOps.ofBits (F := Ideal) .f32 0x3F800000#32)) b

/-- The weight: `0 ≤ v` and `v ≤ 1`, as a float. -/
def refW (a b : EReal) : EReal :=
  FloatOps.uitofp (F := Ideal) .f32
    (IntOp.andi
      (FloatOps.cmpf (F := Ideal) (φ := .f32) .oge (refV a b) (FloatOps.ofBits (F := Ideal) .f32 0x00000000#32))
      (FloatOps.cmpf (F := Ideal) (φ := .f32) .ole (refV a b) (FloatOps.ofBits (F := Ideal) .f32 0x3F800000#32)))

/-- `⌊(v - 0) / 2^-12⌋` as a signed 32-bit word. -/
def refFloor (a b : EReal) : BitVec 32 :=
  FloatOps.fptosi (F := Ideal) (φ := .f32) 32
    (FloatOps.hostUnary (F := Ideal) (φ := .f32) .floor
      (FloatOps.hostDivf (F := Ideal) (φ := .f32)
        (FloatOps.subf (F := Ideal) (φ := .f32) (refV a b) (FloatOps.ofBits (F := Ideal) .f32 0x00000000#32))
        (FloatOps.ofBits (F := Ideal) .f32 0x39800000#32)))

/-- The last bin when `v = 1`, else the floor word. -/
def refSel (a b : EReal) : BitVec 32 :=
  Scalar.select
    (FloatOps.cmpf (F := Ideal) (φ := .f32) .oeq (refV a b) (FloatOps.ofBits (F := Ideal) .f32 0x3F800000#32))
    4095#32 (refFloor a b)

/-- Clipped into `[0, 4095]`. -/
def refClip (a b : EReal) : BitVec 32 :=
  IntOp.minsi 4095#32 (IntOp.maxsi 0#32 (refSel a b))

/-- The bin word the scatter reads: the clipped word, `4096` added were it negative. -/
def refIdx (a b : EReal) : BitVec 32 :=
  Scalar.select (IntOp.cmpi .slt (refClip a b) 0#32) (IntOp.addi (refClip a b) 4096#32) (refClip a b)

/-- A word clipped into `[0, 4095]` (signed maximum with `0`, then signed minimum with `4095`) is, read
    signed, in that interval. -/
theorem clip_toInt (s : BitVec 32) :
    0 ≤ (IntOp.minsi 4095#32 (IntOp.maxsi 0#32 s)).toInt ∧ (IntOp.minsi 4095#32 (IntOp.maxsi 0#32 s)).toInt ≤ 4095 := by
  have h0 : (0#32 : BitVec 32).toInt = 0 := by decide
  have h1 : (4095#32 : BitVec 32).toInt = 4095 := by decide
  unfold IntOp.minsi IntOp.maxsi
  simp only [BitVec.slt, decide_eq_true_eq, h0, h1]
  split_ifs <;> omega

theorem refClip_toInt (a b : EReal) : 0 ≤ (refClip a b).toInt ∧ (refClip a b).toInt ≤ 4095 :=
  clip_toInt _

/-- After the clip no word is negative: the index normalisation is the identity. -/
theorem refIdx_eq_refClip (a b : EReal) : refIdx a b = refClip a b := by
  have h := (refClip_toInt a b).1
  have h0 : (0#32 : BitVec 32).toInt = 0 := by decide
  unfold refIdx IntOp.cmpi
  have : (refClip a b).slt 0#32 = false := by
    simp only [BitVec.slt, h0, decide_eq_false_iff_not, not_lt]; exact h
  simp only [this]
  rfl

theorem refIdx_toInt (a b : EReal) : 0 ≤ (refIdx a b).toInt ∧ (refIdx a b).toInt ≤ 4095 := by
  rw [refIdx_eq_refClip]; exact refClip_toInt a b

/-- The bin word read signed is the bin word read unsigned. -/
theorem refIdx_toInt_eq (a b : EReal) : (refIdx a b).toInt = ((refIdx a b).toNat : Int) := by
  have h := (refIdx_toInt a b).1
  have hlt := (refIdx a b).isLt
  rw [BitVec.toInt_eq_toNat_cond] at h ⊢
  split_ifs at h ⊢ <;> omega

/-- The bin word is a bin: below `4096`. -/
theorem refIdx_lt (a b : EReal) : (refIdx a b).toNat < 4096 := by
  have h := (refIdx_toInt a b).2
  rw [refIdx_toInt_eq] at h
  omega

end Cert.RefSide

end
-- ==== Proof.HitLink.lean ====
/-
  The kernel's per-element hit against the reference's per-element bin and weight.

  For one element with inputs `a`, `b` and `v = a * 1 + b`: the kernel multiplies `v - 0` by `4096`, the
  reference divides it by `2^-12`; on the extended reals these are one function, so the two floor words
  agree for every `v`, and so do the clipped bin words. When `0 ≤ v ≤ 1` the kernel's bin word is the
  reference's (below 4096, hence row `r` and column `c` exactly when it is `64 r + c`) and the weight is
  `1`; otherwise the kernel's word is `-1`, which has no row below 64, and the weight is `0`.
-/
import proofs.«127204_j17566416241189_2_alg».proof.Proof.ChunkHist
import proofs.«127204_j17566416241189_2_alg».proof.Proof.BinWord
import proofs.«127204_j17566416241189_2_alg».proof.Proof.RefScalar

noncomputable section

namespace Cert.KerChunk

open Idealize.ShloMosaic Cert.RefSide

/-- The pattern `0x45800000` denotes `4096`. -/
theorem ofBits_4096 : Ideal.ofBits .f32 0x45800000#32 = ((4096 : ℝ) : EReal) := by
  simp [Ideal.ofBits, Ideal.ieee, -EReal.coe_mul]; norm_num

/-- The pattern `0x39800000` denotes `2^-12 = 1 / 4096`. -/
theorem ofBits_inv4096 : Ideal.ofBits .f32 0x39800000#32 = ((1 / 4096 : ℝ) : EReal) := by
  simp [Ideal.ofBits, Ideal.ieee, -EReal.coe_mul]; norm_num

/-- Dividing by `2^-12` is multiplying by `4096`, on every extended real. -/
theorem div_inv4096 (t : EReal) : Ideal.div t ((1 / 4096 : ℝ) : EReal) = t * ((4096 : ℝ) : EReal) := by
  rw [Ideal.div_coe (by norm_num : (1 / 4096 : ℝ) ≠ 0)]
  norm_num

/-- The kernel's floor word is the reference's, for every `v`. -/
theorem raw_eq (v : EReal) :
    FloatOps.fptosi (F := Ideal) (φ := .f32) 32
        (FloatOps.floor (F := Ideal) (φ := .f32)
          (FloatOps.mulf (F := Ideal) (φ := .f32)
            (FloatOps.subf (F := Ideal) (φ := .f32) v (Scalar.ofBits (F := Ideal) .f32 0x00000000#32))
            (Scalar.ofBits (F := Ideal) .f32 0x45800000#32)))
      = FloatOps.fptosi (F := Ideal) (φ := .f32) 32
        (FloatOps.hostUnary (F := Ideal) (φ := .f32) .floor
          (FloatOps.hostDivf (F := Ideal) (φ := .f32)
            (FloatOps.subf (F := Ideal) (φ := .f32) v (FloatOps.ofBits (F := Ideal) .f32 0x00000000#32))
            (FloatOps.ofBits (F := Ideal) .f32 0x39800000#32))) := by
  simp only [Ideal.hostUnary_floor_def, Ideal.floor_def, Ideal.hostDivf_def, Ideal.mulf_def, Ideal.ofBits_def,
    ofBits_4096, ofBits_inv4096, div_inv4096]

/-- The in-range bit of one element: `0 ≤ v` and `v ≤ 1`. -/
def inRangeBit (a b : EReal) : BitVec 1 :=
  IntOp.andi
    (FloatOps.cmpf (F := Ideal) (φ := .f32) .oge (refV a b) (FloatOps.ofBits (F := Ideal) .f32 0x00000000#32))
    (FloatOps.cmpf (F := Ideal) (φ := .f32) .ole (refV a b) (FloatOps.ofBits (F := Ideal) .f32 0x3F800000#32))

/-- The kernel's bin word is the reference's where the element is in range, the word `-1` elsewhere. -/
theorem kerBin_eq (a b : EReal) :
    kerBin a b = Scalar.select (inRangeBit a b) (refIdx a b) 4294967295#32 := by
  rw [refIdx_eq_refClip]
  simp only [kerBin, raw_eq]
  rfl

/-- The reference's weight is the in-range bit as a number. -/
theorem refW_eq (a b : EReal) : refW a b = (((inRangeBit a b).toNat : ℝ) : EReal) := rfl

/-- THE LINK: the kernel's hit at bin `(r, c)` is the reference's weight when the reference's bin word is
    `64 r + c`, and `0` otherwise. -/
theorem kerHit_eq (r c : Fin 64) (a b : EReal) :
    kerHit r c a b = if (refIdx a b).toNat = 64 * r.val + c.val then refW a b else 0 := by
  unfold kerHit
  rw [kerBin_eq, refW_eq]
  rcases BitVec.eq_zero_or_eq_one (inRangeBit a b) with h0 | h1
  · rw [h0, ValueIdx.select_zero, if_neg (neg_one_not_rc r c)]
    simp
  · rw [h1, ValueIdx.select_one]
    simp only [bin_rc_iff (refIdx a b) (refIdx_lt a b) r c]
    simp

/-- ONE CHUNK'S UPDATE AT A BIN, in the reference's terms: the accumulator there plus the sum of the weights of the
    chunk's elements whose reference bin word is `64 r + c`. -/
theorem pay2_apply_ref (x y : Vec Ideal Cert.KernelIdeal.S8192 .f32) (acc : Vec Ideal Cert.KernelIdeal.S64x64 .f32) (r c : Fin 64) :
    Cert.KernelIdeal.Gen.k0_pay2 (F := Ideal)
        (Cert.KernelIdeal.Gen.k0_pay5 (F := Ideal)
          (iota .tc Cert.KernelIdeal.S64x8192 32 [0] Cert.KernelIdeal.Gen.iota_S64x8192_d0_w32) x y)
        (Cert.KernelIdeal.Gen.k0_pay6 (F := Ideal)
          (iota .tc Cert.KernelIdeal.S8192x64 32 [1] Cert.KernelIdeal.Gen.iota_S8192x64_d1_w32) x y) acc (ValueIdx.ix2 r c)
      = acc (ValueIdx.ix2 r c) + ∑ e : Fin 8192,
          if (refIdx (x (ValueIdx.ix1 e)) (y (ValueIdx.ix1 e))).toNat = 64 * r.val + c.val
          then refW (x (ValueIdx.ix1 e)) (y (ValueIdx.ix1 e)) else 0 := by
  rw [pay2_apply]
  simp only [kerHit_eq]

end Cert.KerChunk

end
-- ==== Proof.LibAccBlocks.lean ====
/-
  Sums accumulated block by block.

  A quantity that gains, at step `k`, the sum of `f` over the `k`-th block of `B` consecutive naturals has gained,
  after `K` steps, the sum of `f` over the first `B * K` naturals (`acc_blocks`, and from an offset
  `acc_blocks_offset`); a sum over `n + n` naturals is the sum over the first `n` plus the sum over the next `n`
  (`two_halves`); a sum over `Fin n` is a sum over `range n` (`sum_fin_eq_range`).
-/
import Mathlib.Algebra.BigOperators.Fin

open Finset

namespace Cert.LibAccBlocks

variable {M : Type*} [AddCommMonoid M]

/-- Block by block from an offset `o`: if `a (k + 1) = a k + ∑ d < B, f (o + B k + d)` for every `k < K`, then
    `a K = a 0 + ∑ d < B K, f (o + d)`. -/
theorem acc_blocks_offset (B K o : ℕ) (a : ℕ → M) (f : ℕ → M)
    (h : ∀ k, k < K → a (k + 1) = a k + ∑ d ∈ range B, f (o + B * k + d)) :
    a K = a 0 + ∑ d ∈ range (B * K), f (o + d) := by
  induction K with
  | zero => simp
  | succ K ih =>
    have e : ∀ d, f (o + B * K + d) = f (o + (B * K + d)) := fun d => by rw [Nat.add_assoc]
    rw [h K (Nat.lt_succ_self K), ih (fun k hk => h k (Nat.lt_succ_of_lt hk)), Nat.mul_succ,
      sum_range_add (fun d => f (o + d)) (B * K) B]
    simp only [e, add_assoc]

/-- Block by block from zero: if `a (k + 1) = a k + ∑ d < B, f (B k + d)` for every `k < K`, then
    `a K = a 0 + ∑ d < B K, f d`. -/
theorem acc_blocks (B K : ℕ) (a : ℕ → M) (f : ℕ → M)
    (h : ∀ k, k < K → a (k + 1) = a k + ∑ d ∈ range B, f (B * k + d)) :
    a K = a 0 + ∑ d ∈ range (B * K), f d := by
  have h' : ∀ k, k < K → a (k + 1) = a k + ∑ d ∈ range B, f (0 + B * k + d) := fun k hk => by
    rw [h k hk]; simp only [Nat.zero_add]
  have := acc_blocks_offset B K 0 a f h'
  simpa only [Nat.zero_add] using this

/-- The first `n` terms plus the next `n` terms are the first `n + n` terms. -/
theorem two_halves (n : ℕ) (f : ℕ → M) :
    (∑ d ∈ range n, f d) + (∑ d ∈ range n, f (n + d)) = ∑ d ∈ range (n + n), f d :=
  (sum_range_add f n n).symm

/-- A sum over `Fin n` as a sum over `range n`. -/
theorem sum_fin_eq_range (n : ℕ) (g : Fin n → M) :
    ∑ k : Fin n, g k = ∑ d ∈ range n, (if h : d < n then g ⟨d, h⟩ else 0) := by
  rw [sum_range fun d => if h : d < n then g ⟨d, h⟩ else 0]
  exact Fintype.sum_congr _ _ fun k => by rw [dif_pos k.isLt]

end Cert.LibAccBlocks
-- ==== Proof.FrameKI.BlockVal.lean ====
/-
  One step of the grid, read at a bin.

  A step of the grid runs 32 trips; trip `k` reads the 8192 elements of each block from position `8192 k` on and
  adds, at bin `(r, c)`, the sum over those elements of `cell r c` — the reference's weight of the element when
  the reference's bin word of it is `64 r + c`, and `0` otherwise. Block by block the 32 trips add the sum of
  `cell r c` over all `262144 = 8192 * 32` elements of the block.
-/
import proofs.«127204_j17566416241189_2_alg».proof.Proof.FrameKI.Pieces
import proofs.«127204_j17566416241189_2_alg».proof.Proof.HitLink
import proofs.«127204_j17566416241189_2_alg».proof.Proof.LibAccBlocks

noncomputable section

open scoped BigOperators

namespace Cert.KernelIdeal.Hand

open Idealize.ShloMosaic Idealize.ShloMosaic.ValueIdx
open Cert.KernelIdeal Cert.KernelIdeal.Gen
open Cert.RefSide Cert.KerChunk

/-- The contribution of one element with inputs `a`, `b` to bin `(r, c)`: its weight when its bin word is
    `64 r + c`. -/
def cell (r c : Fin 64) (a b : EReal) : EReal :=
  if (refIdx a b).toNat = 64 * r.val + c.val then refW a b else 0

/-- The loop runs 32 trips. -/
theorem trips_eq : k0_t1_loop.trips = 32 := by decide

/-- Trip `k` reads from position `8192 k`. -/
theorem off1_eq (k : Fin k0_t1_loop.trips) : k0_off1 k 0 = 8192 * k.val := by
  rw [k0_off1_eq k]; rfl

/-- Element `e` of chunk `k` is inside the block. -/
theorem chunk_lt (k : Fin k0_t1_loop.trips) (e : Fin 8192) : 8192 * k.val + e.val < 262144 := by
  have hk : k.val < 32 := Nat.lt_of_lt_of_eq k.isLt trips_eq
  have := e.isLt
  omega

/-- Chunk `k` of a block at `e` is the block at `8192 k + e`. -/
theorem chunkAt_apply (x : Vec Ideal S262144 .f32) (k : Fin k0_t1_loop.trips) (e : Fin 8192) :
    chunkAt (F := Ideal) x k (ix1 e) = x (ix1 (⟨8192 * k.val + e.val, chunk_lt k e⟩ : Fin 262144)) := by
  unfold chunkAt
  show x ((Rect.unit (s := S262144) (k0_off1 k) S8192.size (k0_off1_inb k)).idx (ix1 e)) = _
  congr 1
  funext a
  match a with
  | ⟨0, _⟩ =>
    refine Fin.ext ?_
    show k0_off1 k 0 + 1 * e.val = 8192 * k.val + e.val
    rw [off1_eq, Nat.one_mul]

/-- One trip at a bin: the accumulator there plus the sum of `cell r c` over the chunk's elements. -/
theorem stepAcc_apply (x0 x1 : Vec Ideal S262144 .f32) (k : Fin k0_t1_loop.trips) (acc : Vec Ideal S64x64 .f32)
    (r c : Fin 64) :
    stepAcc (F := Ideal) rowIota colIota x0 x1 k acc (ix2 r c)
      = acc (ix2 r c) + ∑ e : Fin 8192,
          cell r c (x0 (ix1 (⟨8192 * k.val + e.val, chunk_lt k e⟩ : Fin 262144)))
            (x1 (ix1 (⟨8192 * k.val + e.val, chunk_lt k e⟩ : Fin 262144))) := by
  unfold stepAcc
  refine (pay2_apply_ref (chunkAt (F := Ideal) x0 k) (chunkAt (F := Ideal) x1 k) acc r c).trans ?_
  refine congrArg (fun s => acc (ix2 r c) + s) (Finset.sum_congr rfl fun e _ => ?_)
  rw [chunkAt_apply, chunkAt_apply]
  rfl

/-- A WHOLE STEP OF THE GRID AT A BIN: the accumulator there plus the sum of `cell r c` over the block. -/
theorem blockAcc_apply (x0 x1 : Vec Ideal S262144 .f32) (acc : Vec Ideal S64x64 .f32) (r c : Fin 64) :
    blockAcc (F := Ideal) x0 x1 acc (ix2 r c)
      = acc (ix2 r c) + ∑ d ∈ Finset.range 262144,
          (if h : d < 262144 then cell r c (x0 (ix1 ⟨d, h⟩)) (x1 (ix1 ⟨d, h⟩)) else 0) := by
  have hstep : ∀ k, k < 32 →
      (foldAcc (F := Ideal) rowIota colIota x0 x1 acc (k + 1) (ix2 r c) : EReal)
        = foldAcc (F := Ideal) rowIota colIota x0 x1 acc k (ix2 r c)
          + ∑ d ∈ Finset.range 8192,
              (if h : 8192 * k + d < 262144 then
                cell r c (x0 (ix1 ⟨8192 * k + d, h⟩)) (x1 (ix1 ⟨8192 * k + d, h⟩)) else 0) := by
    intro k hk
    have hk' : k < k0_t1_loop.trips := Nat.lt_of_lt_of_eq hk trips_eq.symm
    rw [foldAcc_succ _ _ _ _ _ _ hk', stepAcc_apply, Cert.LibAccBlocks.sum_fin_eq_range]
    refine congrArg (fun s => foldAcc (F := Ideal) rowIota colIota x0 x1 acc k (ix2 r c) + s)
      (Finset.sum_congr rfl fun d hd => ?_)
    have hd' : d < 8192 := Finset.mem_range.mp hd
    have hlt : 8192 * k + d < 262144 := by omega
    rw [dif_pos hd', dif_pos hlt]
  have key := Cert.LibAccBlocks.acc_blocks (M := EReal) 8192 32
    (fun k => (foldAcc (F := Ideal) rowIota colIota x0 x1 acc k (ix2 r c) : EReal))
    (fun d => if h : d < 262144 then cell r c (x0 (ix1 ⟨d, h⟩)) (x1 (ix1 ⟨d, h⟩)) else 0)
    hstep
  have e : 8192 * 32 = 262144 := by norm_num
  rw [e] at key
  unfold blockAcc
  rw [trips_eq]
  exact key

end Cert.KernelIdeal.Hand

end
-- ==== Proof.KerLayout.lean ====
/-
  The kernel's remaining payloads and the host's merge of the two partial histograms, read at an index
  (at the ideal instance).

  The initial store writes the zero histogram (`pay1_apply`); the final store copies the 64 × 64 scratch
  histogram into the `1 × 64 × 64` output block (`pay3_apply`); after the region the host slices the
  `2 × 64 × 64` output into its two `64 × 64` halves and adds them (`mergeCores`, `mergeCores_apply`).
-/
import proofs.«127204_j17566416241189_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KerChunk

open Idealize.ShloMosaic Idealize.SL.Sem Idealize.ShloMosaic.ValueIdx
open Cert.KernelIdeal Cert.KernelIdeal.Gen

/-- The initial payload is the zero histogram. -/
theorem pay1_apply (r c : Fin 64) : Gen.k0_pay1 (F := Ideal) (ix2 r c) = 0 := by
  unfold Gen.k0_pay1
  rw [shapeCast_self]
  show Ideal.ofBits .f32 0x00000000#32 = 0
  exact Ideal.ofBits_zero_f32

/-- The final payload, the scratch histogram viewed `1 × 64 × 64`, reads at `(u, r, c)` the histogram at `(r, c)`. -/
theorem pay3_apply_ix (v : Vec Ideal S64x64 .f32) (u : Fin 1) (r c : Fin 64) :
    Gen.k0_pay3 (F := Ideal) v (ix3 u r c) = v (ix2 r c) := by
  unfold Gen.k0_pay3
  exact shapeCast_ab_1ab_apply v _ u r c

/-- The same at the block's first (only) leading coordinate. -/
theorem pay3_apply (v : Vec Ideal S64x64 .f32) (r c : Fin 64) :
    Gen.k0_pay3 (F := Ideal) v (ix3 (0 : Fin 1) r c) = v (ix2 r c) :=
  pay3_apply_ix v 0 r c

/-- The same at any index of the block. -/
theorem pay3_apply_idx (v : Vec Ideal S64x64 .f32) (y : S1x64x64.Idx) :
    Gen.k0_pay3 (F := Ideal) v y = v (ix2 (y 1) (y 2)) := by
  obtain ⟨u, i, j, rfl⟩ : ∃ (u : Fin 1) (i j : Fin 64), y = ix3 u i j := ⟨y 0, y 1, y 2, eq_ix3 y⟩
  exact pay3_apply_ix v u i j

/-- The host's merge of the region's `2 × 64 × 64` output: the sum of its two `64 × 64` halves. -/
def mergeCores (arr : FVec Ideal S2x64x64 .f32) : FVec Ideal S64x64 .f32 :=
  addf
    (shapeCast S64x64 (extractStridedSlice S1x64x64 ![0, 0, 0] arr slices_S2x64x64_S1x64x64_0_0_0) shapeCasts_S1x64x64_S64x64)
    (shapeCast S64x64 (extractStridedSlice S1x64x64 ![1, 0, 0] arr slices_S2x64x64_S1x64x64_1_0_0) shapeCasts_S1x64x64_S64x64)

/-- The merged histogram at `(r, c)` is the sum of the two halves there. -/
theorem mergeCores_apply (arr : FVec Ideal S2x64x64 .f32) (r c : Fin 64) :
    mergeCores arr (ix2 r c) = arr (ix3 (0 : Fin 2) r c) + arr (ix3 (1 : Fin 2) r c) := by
  have e0 : extractStridedSlice S1x64x64 ![0, 0, 0] arr slices_S2x64x64_S1x64x64_0_0_0 (ix3 (0 : Fin 1) r c)
      = arr (ix3 (0 : Fin 2) r c) :=
    extractStridedSlice_apply _ arr _ _ _ (fun a => by
      match a with
      | ⟨0, _⟩ => rfl
      | ⟨1, _⟩ => exact (Nat.zero_add _).symm
      | ⟨2, _⟩ => exact (Nat.zero_add _).symm)
  have e1 : extractStridedSlice S1x64x64 ![1, 0, 0] arr slices_S2x64x64_S1x64x64_1_0_0 (ix3 (0 : Fin 1) r c)
      = arr (ix3 (1 : Fin 2) r c) :=
    extractStridedSlice_apply _ arr _ _ _ (fun a => by
      match a with
      | ⟨0, _⟩ => rfl
      | ⟨1, _⟩ => exact (Nat.zero_add _).symm
      | ⟨2, _⟩ => exact (Nat.zero_add _).symm)
  unfold mergeCores
  rw [addf_apply, shapeCast_1ab_ab_apply, shapeCast_1ab_ab_apply, e0, e1]

end Cert.KerChunk

end
-- ==== Proof.FrameKI.PointsVal.lean ====
/-
  The accumulator after each grid point, as a sum. Grid point t reads block t of the two flattened images (262144
  consecutive elements from 262144·t on); core p runs the points 54p … 54p+53, zeroing the accumulator at the first
  and adding every block's table, so after point t the accumulator's entry (r, c) counts the in-range elements with
  bin 64r+c among the elements 262144·54·(t/54) … 262144·(t+1) − 1, and the last point of a core copies it out.
-/
import proofs.«127204_j17566416241189_2_alg».proof.Proof.FrameKI.BlockVal
import proofs.«127204_j17566416241189_2_alg».proof.Proof.KerLayout
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Cert.RefSide Cert.KerChunk ValueIdx Finset

/-- The two flattened images as the region finds them. -/
abbrev imgX (c : Dev nD) : S28311552.Idx → EReal := V m c main_v0
abbrev imgY (c : Dev nD) : S28311552.Idx → EReal := V m c main_v1

/-- Element `n`'s contribution to entry (r, cc) of the table: the in-range indicator when its bin is 64r+cc. -/
def hitAt (c : Dev nD) (r cc : Fin 64) (n : ℕ) : EReal :=
  if h : n < 28311552 then cell r cc (imgX m c (ix1 ⟨n, h⟩)) (imgY m c (ix1 ⟨n, h⟩)) else 0

theorem idx0_facts : ∀ t : Fin cfg0.N, win0_0.index t (0 : Fin 1) = t.val :=
  (by decide +kernel : ∀ t : Fin grid0.N, win0_0.index t (0 : Fin 1) = t.val)
theorem idx1_facts : ∀ t : Fin cfg0.N, win0_1.index t (0 : Fin 1) = t.val :=
  (by decide +kernel : ∀ t : Fin grid0.N, win0_1.index t (0 : Fin 1) = t.val)

/-- Block `t` of the first image: element `d` of the block is element 262144·t + d of the image. -/
theorem iblk0_apply (c : Dev nD) (t : Fin cfg0.N) (d : ℕ) (h : d < 262144) (h' : 262144 * t.val + d < 28311552) :
    (iblk m c 0 t : S262144.Idx → EReal) (ix1 ⟨d, h⟩) = imgX m c (ix1 ⟨262144 * t.val + d, h'⟩) := by
  show V m c main_v0 (((cfg0.win 0).blk t).view.emb (ix1 ⟨d, h⟩)) = V m c main_v0 (ix1 ⟨262144 * t.val + d, h'⟩)
  refine congrArg _ (funext fun a => Fin.ext ?_)
  match a with
  | ⟨0, _⟩ => show win0_0.index t (0 : Fin 1) * 262144 + 1 * d = 262144 * t.val + d; rw [idx0_facts t]; omega
theorem iblk1_apply (c : Dev nD) (t : Fin cfg0.N) (d : ℕ) (h : d < 262144) (h' : 262144 * t.val + d < 28311552) :
    (iblk m c 1 t : S262144.Idx → EReal) (ix1 ⟨d, h⟩) = imgY m c (ix1 ⟨262144 * t.val + d, h'⟩) := by
  show V m c main_v1 (((cfg0.win 1).blk t).view.emb (ix1 ⟨d, h⟩)) = V m c main_v1 (ix1 ⟨262144 * t.val + d, h'⟩)
  refine congrArg _ (funext fun a => Fin.ext ?_)
  match a with
  | ⟨0, _⟩ => show win0_1.index t (0 : Fin 1) * 262144 + 1 * d = 262144 * t.val + d; rw [idx1_facts t]; omega

/-- The block's table, as a stretch of the whole sum. -/
theorem block_sum (c : Dev nD) (t : Fin cfg0.N) (r cc : Fin 64) :
    (∑ d ∈ range 262144, (if h : d < 262144 then cell r cc ((iblk m c 0 t : S262144.Idx → EReal) (ix1 ⟨d, h⟩)) ((iblk m c 1 t : S262144.Idx → EReal) (ix1 ⟨d, h⟩)) else 0))
      = ∑ d ∈ range 262144, hitAt m c r cc (262144 * t.val + d) := by
  have hN : t.val < 108 := lt_of_lt_of_eq t.isLt (show cfg0.N = 108 from N_0)
  refine Finset.sum_congr rfl fun d hd => ?_
  have hd' : d < 262144 := Finset.mem_range.mp hd
  have h' : 262144 * t.val + d < 28311552 := by omega
  rw [dif_pos hd', hitAt, dif_pos h', iblk0_apply m c t d hd' h', iblk1_apply m c t d hd' h']

/-- THE ACCUMULATOR after point `n`. -/
theorem acc_val (c : Dev nD) (r cc : Fin 64) : ∀ (n : ℕ) (hn : n < cfg0.N),
    (outsAt0 m c n hn).2 (ix2 r cc) = ∑ d ∈ range (262144 * (n % 54 + 1)), hitAt m c r cc (262144 * 54 * (n / 54) + d) := by
  intro n
  induction n with
  | zero =>
    intro hn
    rw [outsAt0_A m c ⟨0, hn⟩ rfl (by dsimp only; omega)]
    dsimp only
    rw [sout_A, blockAcc_apply, pay1_apply, zero_add, block_sum]
    simp only [Nat.zero_mod, Nat.zero_div, Nat.mul_zero, Nat.zero_add, Nat.mul_one]
  | succ n ih =>
    intro hn
    have hN : n + 1 < 108 := lt_of_lt_of_eq hn (show cfg0.N = 108 from N_0)
    by_cases h0 : (n + 1) % 54 = 0
    · have h1 : ¬ (n + 1) % 54 = 53 := by omega
      rw [outsAt0_A m c ⟨n + 1, hn⟩ h0 h1]
      dsimp only
      rw [sout_A, blockAcc_apply, pay1_apply, zero_add, block_sum]
      have e : 262144 * 54 * ((n + 1) / 54) = 262144 * (n + 1) := by omega
      rw [h0, e]
    · have hprev := ih (Nat.lt_of_succ_lt hn)
      have hdiv : n / 54 = (n + 1) / 54 := by omega
      have hmod : n % 54 + 1 = (n + 1) % 54 := by omega
      have key : (∑ d ∈ range (262144 * (n % 54 + 1)), hitAt m c r cc (262144 * 54 * (n / 54) + d))
            + (∑ d ∈ range 262144, hitAt m c r cc (262144 * (n + 1) + d))
          = ∑ d ∈ range (262144 * ((n + 1) % 54 + 1)), hitAt m c r cc (262144 * 54 * ((n + 1) / 54) + d) := by
        rw [Nat.mul_succ 262144 ((n + 1) % 54), Finset.sum_range_add, hdiv, hmod]
        refine congrArg (fun s => _ + s) (Finset.sum_congr rfl fun d _ => ?_)
        exact congrArg (hitAt m c r cc) (by omega)
      by_cases h1 : (n + 1) % 54 = 53
      · rw [outsAt0_C m c ⟨n + 1, hn⟩ h0 h1]
        dsimp only
        rw [sout_C, blockAcc_apply, block_sum]
        show (outsAt0 m c n _).2 (ix2 r cc) + _ = _
        rw [hprev]; exact key
      · rw [outsAt0_B m c ⟨n + 1, hn⟩ h0 h1]
        dsimp only
        rw [sout_B, blockAcc_apply, block_sum]
        show (outsAt0 m c n _).2 (ix2 r cc) + _ = _
        rw [hprev]; exact key

/-- At the last point of a core's run the output block is the accumulator, recast [64,64] → [1,64,64]. -/
theorem out_val (c : Dev nD) (n : ℕ) (hn : n < cfg0.N) (h1 : n % 54 = 53) :
    (outsAt0 m c n hn).1 = k0_pay3 (F := Ideal) ((outsAt0 m c n hn).2) := by
  have h0 : ¬ n % 54 = 0 := by omega
  rw [outsAt0_C m c ⟨n, hn⟩ h0 h1]
  dsimp only
  rw [out_C, sout_C]

/-- What the region's output array ends holding: core p's table at [p, ·, ·]. -/
def result (c : Dev nD) : S2x64x64.Idx → EReal := fun i =>
  ∑ d ∈ range (262144 * 54), hitAt m c (i 1) (i 2) (262144 * 54 * (i 0).val + d)

end Cert.KernelIdeal.Hand

end
-- ==== Proof.FrameKI.FinalArr.lean ====
/-
  The region's output array after the run. Only the last point of each core's run writes its block back: block
  (p, 0, 0) of the [2,64,64] array, holding the accumulator after the core's 54 points, i.e. the table of the elements
  262144·54·p … 262144·54·(p+1) − 1. The two blocks cover the array.
-/
import proofs.«127204_j17566416241189_2_alg».proof.Proof.FrameKI.PointsVal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Cert.RefSide Cert.KerChunk ValueIdx Finset

theorem idx2_facts : ∀ t : Fin cfg0.N, win0_2.index t (0 : Fin 3) = t.val / 54 ∧ win0_2.index t (1 : Fin 3) = 0 ∧ win0_2.index t (2 : Fin 3) = 0 :=
  (by decide +kernel : ∀ t : Fin grid0.N, win0_2.index t (0 : Fin 3) = t.val / 54 ∧ win0_2.index t (1 : Fin 3) = 0 ∧ win0_2.index t (2 : Fin 3) = 0)

/-- The result at an index given by its coordinates. -/
theorem result_at (c : Dev nD) (p : ℕ) (i : S2x64x64.Idx) (r cc : Fin 64) (h0 : (i 0).val = p) (h1 : (i 1).val = r.val) (h2 : (i 2).val = cc.val) :
    result m c i = ∑ d ∈ range (262144 * 54), hitAt m c r cc (262144 * 54 * p + d) := by
  obtain rfl : i 1 = r := Fin.ext h1
  obtain rfl : i 2 = cc := Fin.ext h2
  subst h0
  rfl

set_option maxRecDepth 65536 in
/-- What a point that writes back writes: the result's block. -/
theorem flushed_eq (c : Dev nD) (t : Fin cfg0.N) (hf : (cfg0.win 2).flush t = true) :
    (dats m 0 c).flushed 2 t = ((cfg0.win 2).blk t).view.read (Elt Ideal) (result m c) := by
  have h1 : t.val % 54 = 53 := (flush0_2 t).mp hf
  show (cfg0.win 2).cut (grid0.coords t) ((dats m 0 c).after 2 t) = _
  rw [after0_2, out_val m c t.val t.isLt h1]
  funext y
  rw [View.read_apply, cast_eq]
  show k0_pay3 (F := Ideal) _ ((cfg0.win 2).xinj (grid0.coords t) y) = _
  rw [pay3_apply_idx]
  refine (acc_val m c _ _ t.val t.isLt).trans ?_
  rw [h1]
  have hy0 : (y 0).val < 1 := (y 0).isLt
  refine (result_at m c (t.val / 54) _ _ _ ?_ ?_ ?_).symm
  · show win0_2.index t 0 * 1 + 1 * (y 0).val = t.val / 54
    rw [(idx2_facts t).1]; omega
  · show win0_2.index t 1 * 64 + 1 * (y 1).val = (y 1).val
    rw [(idx2_facts t).2.1]; omega
  · show win0_2.index t 2 * 64 + 1 * (y 2).val = (y 2).val
    rw [(idx2_facts t).2.2]; omega

abbrev t0_53 : Fin cfg0.N := ⟨53, by rw [show cfg0.N = 108 from N_0]; decide⟩
abbrev t0_107 : Fin cfg0.N := ⟨107, by rw [show cfg0.N = 108 from N_0]; decide⟩

/-- THE OUTPUT ARRAY after the run. -/
theorem final2 (c : Dev nD) : (dats m 0 c).arrAt 2 cfg0.N = result m c :=
  (dats m 0 c).arrAt_eq_of_cover 2 (result m c) (flushed_eq m c) fun i => by
    have h0 : (i 0 : Nat) < 2 := (i 0).isLt
    have h1 : (i 1 : Nat) < 64 := (i 1).isLt
    have h2 : (i 2 : Nat) < 64 := (i 2).isLt
    by_cases hp : (i 0 : Nat) = 0
    · refine ⟨t0_53, (flush0_2 t0_53).mpr rfl, ?_⟩
      show i ∈ ((View.whole main_v2).slice (win0_2.rect t0_53)).set
      rw [View.set_slice_whole, Rect.mem_set_unit]
      intro a
      match a with
      | ⟨0, _⟩ => show win0_2.index t0_53 0 * win0_2.size 0 ≤ (i 0 : Nat) ∧ (i 0 : Nat) < win0_2.index t0_53 0 * win0_2.size 0 + win0_2.xsize (grid0.coords t0_53) 0
                  rw [show win0_2.index t0_53 0 * win0_2.size 0 = 0 from by decide +kernel, show win0_2.xsize (grid0.coords t0_53) 0 = 1 from by decide +kernel]; omega
      | ⟨1, _⟩ => show win0_2.index t0_53 1 * win0_2.size 1 ≤ (i 1 : Nat) ∧ (i 1 : Nat) < win0_2.index t0_53 1 * win0_2.size 1 + win0_2.xsize (grid0.coords t0_53) 1
                  rw [show win0_2.index t0_53 1 * win0_2.size 1 = 0 from by decide +kernel, show win0_2.xsize (grid0.coords t0_53) 1 = 64 from by decide +kernel]; omega
      | ⟨2, _⟩ => show win0_2.index t0_53 2 * win0_2.size 2 ≤ (i 2 : Nat) ∧ (i 2 : Nat) < win0_2.index t0_53 2 * win0_2.size 2 + win0_2.xsize (grid0.coords t0_53) 2
                  rw [show win0_2.index t0_53 2 * win0_2.size 2 = 0 from by decide +kernel, show win0_2.xsize (grid0.coords t0_53) 2 = 64 from by decide +kernel]; omega
    · refine ⟨t0_107, (flush0_2 t0_107).mpr rfl, ?_⟩
      show i ∈ ((View.whole main_v2).slice (win0_2.rect t0_107)).set
      rw [View.set_slice_whole, Rect.mem_set_unit]
      intro a
      match a with
      | ⟨0, _⟩ => show win0_2.index t0_107 0 * win0_2.size 0 ≤ (i 0 : Nat) ∧ (i 0 : Nat) < win0_2.index t0_107 0 * win0_2.size 0 + win0_2.xsize (grid0.coords t0_107) 0
                  rw [show win0_2.index t0_107 0 * win0_2.size 0 = 1 from by decide +kernel, show win0_2.xsize (grid0.coords t0_107) 0 = 1 from by decide +kernel]; omega
      | ⟨1, _⟩ => show win0_2.index t0_107 1 * win0_2.size 1 ≤ (i 1 : Nat) ∧ (i 1 : Nat) < win0_2.index t0_107 1 * win0_2.size 1 + win0_2.xsize (grid0.coords t0_107) 1
                  rw [show win0_2.index t0_107 1 * win0_2.size 1 = 0 from by decide +kernel, show win0_2.xsize (grid0.coords t0_107) 1 = 64 from by decide +kernel]; omega
      | ⟨2, _⟩ => show win0_2.index t0_107 2 * win0_2.size 2 ≤ (i 2 : Nat) ∧ (i 2 : Nat) < win0_2.index t0_107 2 * win0_2.size 2 + win0_2.xsize (grid0.coords t0_107) 2
                  rw [show win0_2.index t0_107 2 * win0_2.size 2 = 0 from by decide +kernel, show win0_2.xsize (grid0.coords t0_107) 2 = 64 from by decide +kernel]; omega

/-- The two cores' tables merged: entry (r, cc) counts over all 28311552 elements. -/
theorem merged_apply (c : Dev nD) (r cc : Fin 64) :
    mergeCores (result m c) (ix2 r cc) = ∑ n : Fin 28311552, cell r cc (imgX m c (ix1 n)) (imgY m c (ix1 n)) := by
  rw [mergeCores_apply, result_at m c 0 _ r cc rfl rfl rfl, result_at m c 1 _ r cc rfl rfl rfl]
  have e := Cert.LibAccBlocks.two_halves (262144 * 54) (fun n => hitAt m c r cc n)
  simp only [Nat.mul_zero, Nat.zero_add, Nat.mul_one] at e ⊢
  rw [e, Cert.LibAccBlocks.sum_fin_eq_range]
  rfl

end Cert.KernelIdeal.Hand

end
-- ==== Proof.Tail.lean ====
/-
  The reference's host tail as one function of the 64 x 64 joint histogram `h`.

  With `s = ∑ h`, `p = h / s` (the joint distribution), `px r = ∑_c p r c`, `py c = ∑_r p r c`,
  `q = if p ≠ 0 then p else 1`:
    mi  = ∑_{r c} q r c * (log (q r c / (px r * py c + ε)) / log 2),
  and with the raw marginals `h1 r = ∑_c h r c`, `h2 c = ∑_r h r c`, `g k = if h_k ≠ 0 then h_k else 1`,
    e_k = - ∑ g_k * (log g_k / log 2),
  the value is `- ((2 * mi) / ((e_1 + e_2) + ε))`.  Every float is an extended real and every
  operation exact; the term below lists the operations one per line, in the order the program
  states them, each applied to the earlier lines it reads.
-/
import proofs.«127204_j17566416241189_2_alg».proof.ReferenceIdeal
import Idealize.ShloMosaic.PureOps.Ideal

noncomputable section

namespace Cert.RefSide

open Idealize.ShloMosaic Idealize.SL.Sem
open Cert.ReferenceIdeal Cert.ReferenceIdeal.Facts₀

variable [Cert.ReferenceIdeal.Facts]

/-- The scalar the reference returns, from its reshaped histogram. -/
def tailFn (h : FVec Ideal S64x64 .f32) : FVec Ideal S_ .f32 :=
  -- the total count, the joint distribution and its two marginals
  let v30 : FVec Ideal S_ .f32 := Host.reduceAdd (F := Ideal) h (constant (F := Ideal) S_ .f32 0x00000000#32) reducesTo_S64x64_S_d0_1 h_S_
  let v31 : FVec Ideal S64x64 .f32 := broadcastInDim S64x64 ![] bcast_S_S64x64 v30
  let v32 : FVec Ideal S64x64 .f32 := Host.divf (F := Ideal) h v31
  let v33 : FVec Ideal S64 .f32 := Host.reduceAdd (F := Ideal) v32 (constant (F := Ideal) S_ .f32 0x00000000#32) reducesTo_S64x64_S64_d1 h_S_
  let v34 : FVec Ideal S64 .f32 := Host.reduceAdd (F := Ideal) v32 (constant (F := Ideal) S_ .f32 0x00000000#32) reducesTo_S64x64_S64_d0 h_S_
  -- the joint distribution with its zeros replaced by one
  let v35 : FVec Ideal S64x64 .f32 := broadcastInDim S64x64 ![] bcast_S_S64x64 (constant (F := Ideal) S_ .f32 0x00000000#32)
  let v36 : IVec S64x64 1 := cmpf (F := Ideal) .une v32 v35
  let v37 : FVec Ideal S64x64 .f32 := broadcastInDim S64x64 ![] bcast_S_S64x64 (constant (F := Ideal) S_ .f32 0x3F800000#32)
  let v38 : FVec Ideal S64x64 .f32 := select v36 v32 v37
  -- the product of the marginals, plus ε
  let v39 : FVec Ideal S64x1 .f32 := broadcastInDim S64x1 ![0] bcast_S64_S64x1_0 v33
  let v40 : FVec Ideal S1x64 .f32 := broadcastInDim S1x64 ![1] bcast_S64_S1x64_1 v34
  let v41 : FVec Ideal S64x64 .f32 := broadcastInDim S64x64 ![0, 1] bcast_S64x1_S64x64_0_1 v39
  let v42 : FVec Ideal S64x64 .f32 := broadcastInDim S64x64 ![0, 1] bcast_S1x64_S64x64_0_1 v40
  let v43 : FVec Ideal S64x64 .f32 := mulf (F := Ideal) v41 v42
  let v44 : FVec Ideal S64x64 .f32 := broadcastInDim S64x64 ![] bcast_S_S64x64 (constant (F := Ideal) S_ .f32 0x358637BD#32)
  let v45 : FVec Ideal S64x64 .f32 := addf (F := Ideal) v43 v44
  -- the mutual information
  let v46 : FVec Ideal S64x64 .f32 := Host.divf (F := Ideal) v38 v45
  let v47 : FVec Ideal S64x64 .f32 := Host.log (F := Ideal) v46
  let v48 : FVec Ideal S_ .f32 := Host.log (F := Ideal) (constant (F := Ideal) S_ .f32 0x40000000#32)
  let v49 : FVec Ideal S64x64 .f32 := broadcastInDim S64x64 ![] bcast_S_S64x64 v48
  let v50 : FVec Ideal S64x64 .f32 := Host.divf (F := Ideal) v47 v49
  let v51 : FVec Ideal S64x64 .f32 := mulf (F := Ideal) v38 v50
  let v52 : FVec Ideal S_ .f32 := Host.reduceAdd (F := Ideal) v51 (constant (F := Ideal) S_ .f32 0x00000000#32) reducesTo_S64x64_S_d0_1 h_S_
  -- the raw marginals
  let v53 : FVec Ideal S64 .f32 := Host.reduceAdd (F := Ideal) h (constant (F := Ideal) S_ .f32 0x00000000#32) reducesTo_S64x64_S64_d1 h_S_
  let v54 : FVec Ideal S64 .f32 := Host.reduceAdd (F := Ideal) h (constant (F := Ideal) S_ .f32 0x00000000#32) reducesTo_S64x64_S64_d0 h_S_
  let v55 : FVec Ideal S_ .f32 := mulf (F := Ideal) (constant (F := Ideal) S_ .f32 0x40000000#32) v52
  -- the entropy of the first marginal
  let v56 : FVec Ideal S64 .f32 := broadcastInDim S64 ![] bcast_S_S64 (constant (F := Ideal) S_ .f32 0x00000000#32)
  let v57 : IVec S64 1 := cmpf (F := Ideal) .une v53 v56
  let v58 : FVec Ideal S64 .f32 := broadcastInDim S64 ![] bcast_S_S64 (constant (F := Ideal) S_ .f32 0x3F800000#32)
  let v59 : FVec Ideal S64 .f32 := select v57 v53 v58
  let v60 : FVec Ideal S64 .f32 := Host.log (F := Ideal) v59
  let v61 : FVec Ideal S_ .f32 := Host.log (F := Ideal) (constant (F := Ideal) S_ .f32 0x40000000#32)
  let v62 : FVec Ideal S64 .f32 := broadcastInDim S64 ![] bcast_S_S64 v61
  let v63 : FVec Ideal S64 .f32 := Host.divf (F := Ideal) v60 v62
  let v64 : FVec Ideal S64 .f32 := mulf (F := Ideal) v59 v63
  let v65 : FVec Ideal S_ .f32 := Host.reduceAdd (F := Ideal) v64 (constant (F := Ideal) S_ .f32 0x00000000#32) reducesTo_S64_S_d0 h_S_
  let v66 : FVec Ideal S_ .f32 := Host.negf (F := Ideal) v65
  -- the entropy of the second marginal
  let v67 : FVec Ideal S64 .f32 := broadcastInDim S64 ![] bcast_S_S64 (constant (F := Ideal) S_ .f32 0x00000000#32)
  let v68 : IVec S64 1 := cmpf (F := Ideal) .une v54 v67
  let v69 : FVec Ideal S64 .f32 := broadcastInDim S64 ![] bcast_S_S64 (constant (F := Ideal) S_ .f32 0x3F800000#32)
  let v70 : FVec Ideal S64 .f32 := select v68 v54 v69
  let v71 : FVec Ideal S64 .f32 := Host.log (F := Ideal) v70
  let v72 : FVec Ideal S_ .f32 := Host.log (F := Ideal) (constant (F := Ideal) S_ .f32 0x40000000#32)
  let v73 : FVec Ideal S64 .f32 := broadcastInDim S64 ![] bcast_S_S64 v72
  let v74 : FVec Ideal S64 .f32 := Host.divf (F := Ideal) v71 v73
  let v75 : FVec Ideal S64 .f32 := mulf (F := Ideal) v70 v74
  let v76 : FVec Ideal S_ .f32 := Host.reduceAdd (F := Ideal) v75 (constant (F := Ideal) S_ .f32 0x00000000#32) reducesTo_S64_S_d0 h_S_
  let v77 : FVec Ideal S_ .f32 := Host.negf (F := Ideal) v76
  -- the normalised value, negated
  let v78 : FVec Ideal S_ .f32 := addf (F := Ideal) v66 v77
  let v79 : FVec Ideal S_ .f32 := addf (F := Ideal) v78 (constant (F := Ideal) S_ .f32 0x358637BD#32)
  let v80 : FVec Ideal S_ .f32 := Host.divf (F := Ideal) v55 v79
  Host.negf (F := Ideal) v80

end Cert.RefSide

end
-- ==== Proof.FrameKI.TailVal.lean ====
/-
  The host lines around the region, read as values (at the ideal instance). Before the region the two images are
  flattened; after it the two partial histograms are merged and the merged histogram goes through the same chain of
  operations as the reference's histogram: the scalar the program returns is the reference's tail function of the
  merged histogram.
-/
import proofs.«127204_j17566416241189_2_alg».proof.Proof.FrameKI.FrameOf
import proofs.«127204_j17566416241189_2_alg».proof.Proof.KerLayout
import proofs.«127204_j17566416241189_2_alg».proof.Proof.Tail
import proofs.«127204_j17566416241189_2_alg».proof.Proof.Gen.ReferenceIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)
open Cert.KernelIdeal Cert.KernelIdeal.Gen

variable (m : (ℓ : Loc nD τ sig) → Buf (Elt Ideal) ℓ) (ρ : Dev nD → PrngReg)

/-- When the region is entered the first window's array is the first image, flattened. -/
theorem V_main_v0 (c : Dev nD) :
    (V m c main_v0 : S28311552.Idx → EReal)
      = shapeCast S28311552 (m ((c : Thread nD τ).loc main_arg0) : S4x192x192x192.Idx → EReal) shapeCasts_S4x192x192x192_S28311552 := by
  dsimp only [V, V0]
  simp only [hostOps0, List.flatten_cons, List.flatten_nil, List.append_nil, List.cons_append, List.nil_append]
  after_results
  rfl

/-- And the second window's array is the second image, flattened. -/
theorem V_main_v1 (c : Dev nD) :
    (V m c main_v1 : S28311552.Idx → EReal)
      = shapeCast S28311552 (m ((c : Thread nD τ).loc main_arg1) : S4x192x192x192.Idx → EReal) shapeCasts_S4x192x192x192_S28311552 := by
  dsimp only [V, V0]
  simp only [hostOps0, List.flatten_cons, List.flatten_nil, List.append_nil, List.cons_append, List.nil_append]
  after_results
  rfl

/-- The region's output array when the region is left, as a `2 × 64 × 64` array of extended reals. -/
abbrev regionOut (c : Dev nD) : FVec Ideal S2x64x64 .f32 := (dats m 0 c).arrAt 2 cfg0.N

set_option maxHeartbeats 4000000 in
set_option maxRecDepth 65536 in
/-- From any contents `W` of the buffers, the lines after the region leave in the result buffer the reference's tail
    function of the merge of what `W` holds in the region's output array. -/
theorem tail_of_valuation (W : Valuation τ sig (Elt Ideal)) :
    (StableHlo.after (tailOps (F := Ideal)).flatten W (Proc.devRef .tc main_v59) : S_.Idx → EReal)
      = Cert.RefSide.tailFn (Cert.KerChunk.mergeCores (W (Proc.devRef .tc main_v2))) := by
  simp only [tailOps, hostOps1, hostOps1_1, hostOps1_2, hostOps1_3, hostOps1_4, hostOps1_5, hostOps1_6,
    List.flatten_cons, List.flatten_nil, List.append_nil, List.cons_append, List.nil_append]
  after_results_simp
  rfl

/-- THE TAIL: the scalar the program returns is the reference's tail function of the merged histogram. -/
theorem tail_val (c : Dev nD) :
    (Pipeline.afterTail₀ cfgs (dats m) 0 (V0 m) tailOps c main_v59 : S_.Idx → EReal)
      = Cert.RefSide.tailFn (Cert.KerChunk.mergeCores (regionOut m c)) := by
  unfold Pipeline.afterTail₀
  refine (tail_of_valuation _).trans ?_
  exact congrArg (fun a => Cert.RefSide.tailFn (Cert.KerChunk.mergeCores a))
    (Pipeline.withArrays_arr spec0 launch0.win.arr_inj c _ _ 2)

end Cert.KernelIdeal.Hand

end
-- ==== Proof.LibGatherScatter.lean ====
/-
  GATHER AND SCATTER READ AT AN INDEX, for the two layouts an embedding lookup and its transpose lower to:
  `stablehlo.gather` of the ROWS of an `[N, D]` table (or of the entries of a flat `[N]` array) at an `[E, 1]`
  array of start indices, and `stablehlo.scatter` with an `add` body of an `[E, D]` array of update rows into an
  `[N, D]` operand at an `[E, 1]` array of scatter indices. Each lemma is generic in the sizes `N E D` and in the
  index width `w`; the dimension numbers are built from the sizes and a proof of their side conditions, so a
  literal record of a program is definitionally one of them.
-/
import Idealize.ShloMosaic.PureOps.Ideal
import Idealize.ShloMosaic.PureOps.Ideal.Laws
import Idealize.ShloMosaic.Lib.ValueIdx

noncomputable section

open scoped BigOperators

namespace Cert.Lib.GatherScatter

open Idealize.ShloMosaic
open Idealize.ShloMosaic.ValueIdx

/-! ## Rows gather: `table[idx]` of an `[N, D]` table at `[E, 1]` start indices -/

section RowsGather
variable {α : Type}

/-- The dimension numbers of a rows gather: operand `[N, D]`, start indices `[E, 1]`, result `[E, D]`; the result's
    axis 1 is the offset axis, operand axis 0 is collapsed and is the one the start index names, the index vector
    lies along start-indices axis 1, and a slice is one whole row (`slice_sizes = [1, D]`). -/
abbrev rowsGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROWS GATHER READ AT `j = (e, k)`: the table at row `idx[e, 0]` — read as a signed integer and clamped into
    `[0, N − 1]` — and column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowsGatherDims N E D wf) x idx j
      = x (ix2 (⟨min (idx (ix2 (j 0 : Fin E) (0 : Fin 1))).toInt.toNat (N - 1), by omega⟩ : Fin N) (j 1 : Fin D)) := by
  unfold Host.gather
  congr 1
  funext a
  refine Fin.ext ?_
  match a with
  | ⟨0, _⟩ =>
    show (rowsGatherDims N E D wf).start j idx 0 + (rowsGatherDims N E D wf).batchCoord j 0
      + (rowsGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E D wf).startIndexMap from List.mem_singleton.mpr rfl)]
    have hsi : (rowsGatherDims N E D wf).siIdx j ⟨List.idxOf (0 : Fin 2) (rowsGatherDims N E D wf).startIndexMap,
        List.idxOf_lt_length_iff.2 (List.mem_singleton.mpr rfl)⟩ = ix2 (j 0 : Fin E) (0 : Fin 1) := by
      funext b; refine Fin.ext ?_
      match b with
      | ⟨0, _⟩ => rfl
      | ⟨1, _⟩ => rfl
    rw [hsi]
    rfl
  | ⟨1, _⟩ =>
    show (rowsGatherDims N E D wf).start j idx 1 + (rowsGatherDims N E D wf).batchCoord j 1
      + (rowsGatherDims N E D wf).offCoord j 1 = (j 1).val
    rw [GatherDims.batchCoord_eq_zero _ _ _ List.not_mem_nil]
    unfold GatherDims.start
    rw [dif_neg (show (1 : Fin 2) ∉ (rowsGatherDims N E D wf).startIndexMap from
      (show (1 : Fin 2) ∉ [(0 : Fin 2)] by decide))]
    simp only [Nat.add_zero, Nat.zero_add]
    unfold GatherDims.offCoord
    rw [dif_pos (show (1 : Fin 2) ∈ (rowsGatherDims N E D wf).sKept from
      (GatherDims.mem_sKept _ _).mpr ⟨(show (1 : Fin 2) ∉ [(0 : Fin 2)] by decide), List.not_mem_nil⟩)]
    rfl

/-- The rows gather read at explicit coordinates `(e, k)`. -/
theorem gather_rows_apply_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsGatherDims N E D wf) x idx (ix2 e k)
      = x (ix2 (⟨min (idx (ix2 e (0 : Fin 1))).toInt.toNat (N - 1), by omega⟩ : Fin N) k) :=
  gather_rows_apply hN wf x idx (ix2 e k)

/-- The rows gather read at `j`, for ANY record `d` of dimension numbers that is `rowsGatherDims` (the side
    condition `hd` closes by `rfl` on a literal record); the left side mentions `d` itself, so the lemma
    rewrites a goal that names the record. -/
theorem gather_rows_apply_of_eq {N E D w : Nat} (hN : 0 < N)
    (d : GatherDims ⟨2, ![N, D]⟩ ⟨2, ![E, 1]⟩ ⟨2, ![E, D]⟩)
    {wf : GatherDims.WF ⟨2, ![N, D]⟩ ⟨2, ![E, 1]⟩ ⟨2, ![E, D]⟩ [1] [0] [] [0] [] 1 ![1, D]}
    (hd : d = rowsGatherDims N E D wf)
    (x : (⟨2, ![N, D]⟩ : Shape).Idx → α) (idx : IVec ⟨2, ![E, 1]⟩ w) (j : (⟨2, ![E, D]⟩ : Shape).Idx) :
    Host.gather d x idx j
      = x (ix2 (⟨min (idx (ix2 (j 0 : Fin E) (0 : Fin 1))).toInt.toNat (N - 1), by omega⟩ : Fin N) (j 1 : Fin D)) := by
  subst hd; exact gather_rows_apply hN wf x idx j

/-- The same at explicit coordinates `(e, k)`. -/
theorem gather_rows_apply_ix2_of_eq {N E D w : Nat} (hN : 0 < N)
    (d : GatherDims ⟨2, ![N, D]⟩ ⟨2, ![E, 1]⟩ ⟨2, ![E, D]⟩)
    {wf : GatherDims.WF ⟨2, ![N, D]⟩ ⟨2, ![E, 1]⟩ ⟨2, ![E, D]⟩ [1] [0] [] [0] [] 1 ![1, D]}
    (hd : d = rowsGatherDims N E D wf)
    (x : (⟨2, ![N, D]⟩ : Shape).Idx → α) (idx : IVec ⟨2, ![E, 1]⟩ w) (e : Fin E) (k : Fin D) :
    Host.gather d x idx (ix2 e k)
      = x (ix2 (⟨min (idx (ix2 e (0 : Fin 1))).toInt.toNat (N - 1), by omega⟩ : Fin N) k) := by
  subst hd; exact gather_rows_apply_ix2 hN wf x idx e k

end RowsGather

/-! ## Flat gather: `x[idx]` of a flat `[N]` array at `[E, 1]` start indices -/

section FlatGather
variable {α : Type}

/-- The dimension numbers of a flat gather: operand `[N]`, start indices `[E, 1]`, result `[E]`; no offset axis,
    the operand's one axis collapsed and named by the start index, the index vector along start-indices axis 1, and
    a slice is one element (`slice_sizes = [1]`). -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `j = (e)`: the array at position `idx[e, 0]`, read as a signed integer and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (flatGatherDims N E wf) x idx j
      = x (ix1 (⟨min (idx (ix2 (j 0 : Fin E) (0 : Fin 1))).toInt.toNat (N - 1), by omega⟩ : Fin N)) := by
  unfold Host.gather
  congr 1
  funext a
  obtain rfl : a = 0 := Subsingleton.elim _ _
  refine Fin.ext ?_
  show (flatGatherDims N E wf).start j idx 0 + (flatGatherDims N E wf).batchCoord j 0
    + (flatGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx j ⟨List.idxOf (0 : Fin 1) (flatGatherDims N E wf).startIndexMap,
      List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- The flat gather read at an explicit coordinate `e`. -/
theorem gather_flat_apply_ix1 {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e)
      = x (ix1 (⟨min (idx (ix2 e (0 : Fin 1))).toInt.toNat (N - 1), by omega⟩ : Fin N)) :=
  gather_flat_apply hN wf x idx (ix1 e)

/-- The flat gather read at `e`, for ANY record `d` of dimension numbers that is `flatGatherDims` (`hd` closes by
    `rfl` on a literal record); the left side mentions `d` itself. -/
theorem gather_flat_apply_ix1_of_eq {N E w : Nat} (hN : 0 < N)
    (d : GatherDims ⟨1, ![N]⟩ ⟨2, ![E, 1]⟩ ⟨1, ![E]⟩)
    {wf : GatherDims.WF ⟨1, ![N]⟩ ⟨2, ![E, 1]⟩ ⟨1, ![E]⟩ [] [0] [] [0] [] 1 ![1]}
    (hd : d = flatGatherDims N E wf)
    (x : (⟨1, ![N]⟩ : Shape).Idx → α) (idx : IVec ⟨2, ![E, 1]⟩ w) (e : Fin E) :
    Host.gather d x idx (ix1 e)
      = x (ix1 (⟨min (idx (ix2 e (0 : Fin 1))).toInt.toNat (N - 1), by omega⟩ : Fin N)) := by
  subst hd; exact gather_flat_apply_ix1 hN wf x idx e

end FlatGather

/-! ## Rows scatter: update rows `[E, D]` added into an `[N, D]` operand at `[E, 1]` scatter indices -/

section RowsScatter

/-- An axis is among the kept ones exactly when it is not in the list that was dropped. -/
theorem mem_kept {s : Shape} (axes : List (Fin s.rank)) (a : Fin s.rank) : a ∈ s.kept axes ↔ a ∉ axes := by
  simp [Shape.kept, List.mem_filter, List.mem_finRange]

/-- WHERE AN UPDATE LANDS, for any scatter dimension numbers: update index `j` lands at operand index `i` exactly
    when on every operand axis the signed start plus the window coordinate is `i`'s coordinate. (The in-range
    test inside `resultIdx?` is then automatic, `i`'s coordinates being in range.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      exact (Int.toNat_of_nonneg (h a).1).symm
    · intro H
      funext a
      apply Fin.ext
      show (d.start j idx a + (d.window j a : Int)).toNat = (i a).val
      rw [H a, Int.toNat_natCast]
  · rename_i h
    constructor
    · intro hh; cases hh
    · intro H
      exfalso
      apply h
      intro a
      rw [H a]
      exact ⟨Int.natCast_nonneg _, by exact_mod_cast (i a).isLt⟩

/-- The dimension numbers of a rows scatter: operand `[N, D]`, scatter indices `[E, 1]`, updates `[E, D]`; the
    updates' axis 1 is the window axis, operand axis 0 is inserted and is the one the scatter index names, and the
    index vector lies along scatter-indices axis 1. -/
abbrev rowsScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem scatter_rows_start0 (idx : IVec ⟨2, ![E, 1]⟩ w) (j : (⟨2, ![E, D]⟩ : Shape).Idx) :
    (rowsScatterDims N E D wf).start j idx 0 = (idx (ix2 (j 0 : Fin E) (0 : Fin 1))).toInt := by
  unfold ScatterDims.start
  rw [dif_pos (show (0 : Fin 2) ∈ (rowsScatterDims N E D wf).scatterDimsToOperandDims from
    List.mem_singleton.mpr rfl)]
  have hsi : (rowsScatterDims N E D wf).siIdx j
      ⟨List.idxOf (0 : Fin 2) (rowsScatterDims N E D wf).scatterDimsToOperandDims,
        List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- On the column axis the window starts at `0`: the scatter index does not name that axis. -/
theorem scatter_rows_start1 (idx : IVec ⟨2, ![E, 1]⟩ w) (j : (⟨2, ![E, D]⟩ : Shape).Idx) :
    (rowsScatterDims N E D wf).start j idx 1 = 0 := by
  unfold ScatterDims.start
  rw [dif_neg (show (1 : Fin 2) ∉ (rowsScatterDims N E D wf).scatterDimsToOperandDims from
    (show (1 : Fin 2) ∉ [(0 : Fin 2)] by decide))]

/-- The row axis is inserted: the window coordinate on it is `0`. -/
theorem scatter_rows_window0 (j : (⟨2, ![E, D]⟩ : Shape).Idx) :
    (rowsScatterDims N E D wf).window j 0 = 0 := by
  unfold ScatterDims.window
  rw [dif_neg (show (0 : Fin 2) ∉ (rowsScatterDims N E D wf).sKept from
    fun h => (mem_kept _ _).mp h (List.mem_singleton.mpr rfl))]

/-- The window coordinate on the column axis is the update's column. -/
theorem scatter_rows_window1 (j : (⟨2, ![E, D]⟩ : Shape).Idx) :
    (rowsScatterDims N E D wf).window j 1 = (j 1).val := by
  unfold ScatterDims.window
  rw [dif_pos (show (1 : Fin 2) ∈ (rowsScatterDims N E D wf).sKept from
    (mem_kept _ _).mpr (show (1 : Fin 2) ∉ [(0 : Fin 2)] by decide))]
  rfl

/-- WHERE A ROW UPDATE LANDS: update element `(e, k)` lands at operand element `(n, k')` exactly when the scatter
    index `idx[e, 0]`, read as a signed integer, is `n`, and the columns agree. An index outside `[0, N)` lands
    nowhere. -/
theorem scatter_rows_resultIdx?_iff (idx : IVec ⟨2, ![E, 1]⟩ w) (e : Fin E) (k : Fin D) (n : Fin N) (k' : Fin D) :
    (rowsScatterDims N E D wf).resultIdx? (ix2 e k) idx = some (ix2 n k')
      ↔ (idx (ix2 e (0 : Fin 1))).toInt = (n.val : Int) ∧ k = k' := by
  rw [resultIdx?_eq_some_iff]
  have hs0 : (rowsScatterDims N E D wf).start (ix2 e k) idx 0 = (idx (ix2 e (0 : Fin 1))).toInt :=
    scatter_rows_start0 wf idx (ix2 e k)
  have hs1 := scatter_rows_start1 wf idx (ix2 e k)
  have hw0 := scatter_rows_window0 (N := N) wf (ix2 e k)
  have hw1 : (rowsScatterDims N E D wf).window (ix2 e k) 1 = k.val := scatter_rows_window1 (N := N) wf (ix2 e k)
  constructor
  · intro H
    have H0 : (rowsScatterDims N E D wf).start (ix2 e k) idx 0
        + ((rowsScatterDims N E D wf).window (ix2 e k) 0 : Int) = (n.val : Int) := H 0
    have H1 : (rowsScatterDims N E D wf).start (ix2 e k) idx 1
        + ((rowsScatterDims N E D wf).window (ix2 e k) 1 : Int) = (k'.val : Int) := H 1
    rw [hs0, hw0] at H0
    rw [hs1, hw1] at H1
    refine ⟨by simpa using H0, Fin.ext ?_⟩
    have : (k.val : Int) = (k'.val : Int) := by simpa using H1
    exact_mod_cast this
  · rintro ⟨hI, rfl⟩ a
    match a with
    | ⟨0, _⟩ =>
      show (rowsScatterDims N E D wf).start (ix2 e k) idx 0
        + ((rowsScatterDims N E D wf).window (ix2 e k) 0 : Int) = (n.val : Int)
      rw [hs0, hw0, hI]; simp
    | ⟨1, _⟩ =>
      show (rowsScatterDims N E D wf).start (ix2 e k) idx 1
        + ((rowsScatterDims N E D wf).window (ix2 e k) 1 : Int) = (k.val : Int)
      rw [hs1, hw1]; simp

/-- THE IDEAL SCATTER-ADD OF ROWS READ AT `(n, k)`: the operand's element plus the sum, over the update rows `e`
    whose scatter index `idx[e, 0]` (read as a signed integer) is `n`, of the update's element `(e, k)`. The
    update elements that land at `(n, k)` are exactly the `(e, k)` with `idx[e, 0] = n`, one per such row. -/
theorem hostScatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowsScatterDims N E D wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  symm
  apply Finset.sum_bij (fun (e : Fin E) _ => (ix2 e k : (⟨2, ![E, D]⟩ : Shape).Idx))
  · intro e he
    rw [Finset.mem_filter] at he ⊢
    exact ⟨Finset.mem_univ _, (scatter_rows_resultIdx?_iff wf idx e k n k).mpr ⟨he.2, rfl⟩⟩
  · intro e₁ _ e₂ _ h
    exact congrFun h 0
  · intro j hj
    rw [Finset.mem_filter] at hj
    obtain ⟨e, k₀, rfl⟩ : ∃ (e : Fin E) (k₀ : Fin D), j = ix2 e k₀ := ⟨j 0, j 1, eq_ix2 j⟩
    obtain ⟨hI, rfl⟩ := (scatter_rows_resultIdx?_iff wf idx e k₀ n k).mp hj.2
    exact ⟨e, Finset.mem_filter.mpr ⟨Finset.mem_univ _, hI⟩, rfl⟩
  · intro e _
    rfl

/-- Where a row update lands, for ANY record `d` of dimension numbers that is `rowsScatterDims` (the side
    condition `hd` closes by `rfl` on a literal record); the left side mentions `d` itself. -/
theorem scatter_rows_resultIdx?_iff_of_eq (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (idx : IVec ⟨2, ![E, 1]⟩ w) (e : Fin E) (k : Fin D) (n : Fin N) (k' : Fin D) :
    d.resultIdx? (ix2 e k) idx = some (ix2 n k')
      ↔ (idx (ix2 e (0 : Fin 1))).toInt = (n.val : Int) ∧ k = k' := by
  subst hd; exact scatter_rows_resultIdx?_iff wf idx e k n k'

/-- The ideal scatter-add of rows read at `(n, k)`, for ANY record `d` of dimension numbers that is
    `rowsScatterDims` (`hd` closes by `rfl` on a literal record); the left side mentions `d` itself, so the
    lemma rewrites a goal that names the record. -/
theorem hostScatterAdd_rows_apply_of_eq (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd d x idx upd (ix2 n k)
      = x (ix2 n k) + ∑ e ∈ Finset.univ.filter (fun e : Fin E => (idx (ix2 e (0 : Fin 1))).toInt = (n.val : Int)),
          upd (ix2 e k) := by
  subst hd; exact hostScatterAdd_rows_apply wf x idx upd n k

end RowsScatter

end Cert.Lib.GatherScatter

end
-- ==== Proof.LibFlatScatter.lean ====
/-
  THE FLAT SCATTER-ADD READ AT AN INDEX: `stablehlo.scatter` with an `add` body of an `[E]` array of updates into
  a flat `[N]` operand at an `[E, 1]` array of scatter indices (`zeros(N).at[idx].add(w)`: a histogram). Update
  `e` lands at operand position `n` exactly when its scatter index `idx[e, 0]`, read as a signed integer, is `n`;
  an index outside `[0, N)` lands nowhere. At the ideal instance the result at `n` is the operand's element plus
  the sum of the updates that land there. Generic in the sizes `N E` and in the index width `w`; the dimension
  numbers are built from the sizes and a proof of their side conditions, so a literal record of a program is
  definitionally one of them.
-/
import Idealize.ShloMosaic.PureOps.Ideal
import Idealize.ShloMosaic.PureOps.Ideal.Laws
import Idealize.ShloMosaic.Lib.ValueIdx
import proofs.«127204_j17566416241189_2_alg».proof.Proof.LibGatherScatter

noncomputable section

open scoped BigOperators

namespace Cert.Lib.FlatScatter

open Idealize.ShloMosaic
open Idealize.ShloMosaic.ValueIdx
open Cert.Lib.GatherScatter (resultIdx?_eq_some_iff mem_kept)

/-- The dimension numbers of a flat scatter: operand `[N]`, scatter indices `[E, 1]`, updates `[E]`; no window
    axis, the operand's one axis inserted and named by the scatter index, the index vector along scatter-indices
    axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at the scatter index `idx[e, 0]`, read signed. -/
theorem scatter_flat_start0 (idx : IVec ⟨2, ![E, 1]⟩ w) (j : (⟨1, ![E]⟩ : Shape).Idx) :
    (flatScatterDims N E wf).start j idx 0 = (idx (ix2 (j 0 : Fin E) (0 : Fin 1))).toInt := by
  unfold ScatterDims.start
  rw [dif_pos (show (0 : Fin 1) ∈ (flatScatterDims N E wf).scatterDimsToOperandDims from
    List.mem_singleton.mpr rfl)]
  have hsi : (flatScatterDims N E wf).siIdx j
      ⟨List.idxOf (0 : Fin 1) (flatScatterDims N E wf).scatterDimsToOperandDims,
        List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- The operand's one axis is inserted: the window coordinate on it is `0`. -/
theorem scatter_flat_window0 (j : (⟨1, ![E]⟩ : Shape).Idx) :
    (flatScatterDims N E wf).window j 0 = 0 := by
  unfold ScatterDims.window
  rw [dif_neg (show (0 : Fin 1) ∉ (flatScatterDims N E wf).sKept from
    fun h => (mem_kept _ _).mp h (List.mem_singleton.mpr rfl))]

/-- WHERE A FLAT UPDATE LANDS: update `e` lands at operand position `n` exactly when the scatter index
    `idx[e, 0]`, read as a signed integer, is `n`. An index outside `[0, N)` lands nowhere. -/
theorem scatter_flat_resultIdx?_iff (idx : IVec ⟨2, ![E, 1]⟩ w) (e : Fin E) (n : Fin N) :
    (flatScatterDims N E wf).resultIdx? (ix1 e) idx = some (ix1 n)
      ↔ (idx (ix2 e (0 : Fin 1))).toInt = (n.val : Int) := by
  rw [resultIdx?_eq_some_iff]
  have hs0 : (flatScatterDims N E wf).start (ix1 e) idx 0 = (idx (ix2 e (0 : Fin 1))).toInt :=
    scatter_flat_start0 wf idx (ix1 e)
  have hw0 := scatter_flat_window0 (N := N) wf (ix1 e)
  constructor
  · intro H
    have H0 : (flatScatterDims N E wf).start (ix1 e) idx 0
        + ((flatScatterDims N E wf).window (ix1 e) 0 : Int) = (n.val : Int) := H 0
    rw [hs0, hw0] at H0
    simpa using H0
  · intro hI a
    obtain rfl : a = 0 := Subsingleton.elim _ _
    show (flatScatterDims N E wf).start (ix1 e) idx 0
      + ((flatScatterDims N E wf).window (ix1 e) 0 : Int) = (n.val : Int)
    rw [hs0, hw0, hI]; simp

/-- THE IDEAL FLAT SCATTER-ADD READ AT `n`: the operand's element plus the sum, over the updates `e` whose scatter
    index `idx[e, 0]` (read as a signed integer) is `n`, of the update `e`. -/
theorem hostScatterAdd_flat_apply (x : (⟨1, ![N]⟩ : Shape).Idx → EReal) (idx : IVec ⟨2, ![E, 1]⟩ w)
    (upd : (⟨1, ![E]⟩ : Shape).Idx → EReal) (n : Fin N) :
    Ideal.hostScatterAdd (flatScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  apply Finset.sum_bij (fun (e : Fin E) _ => (ix1 e : (⟨1, ![E]⟩ : Shape).Idx))
  · intro e he
    rw [Finset.mem_filter] at he ⊢
    exact ⟨Finset.mem_univ _, (scatter_flat_resultIdx?_iff wf idx e n).mpr he.2⟩
  · intro e₁ _ e₂ _ h
    exact congrFun h 0
  · intro j hj
    rw [Finset.mem_filter] at hj
    obtain ⟨e, rfl⟩ : ∃ e : Fin E, j = ix1 e := ⟨j 0, eq_ix1 j⟩
    exact ⟨e, Finset.mem_filter.mpr ⟨Finset.mem_univ _, (scatter_flat_resultIdx?_iff wf idx e n).mp hj.2⟩, rfl⟩
  · intro e _
    rfl

/-- The same with the condition inside the sum: over ALL updates, each counted when it lands at `n`. -/
theorem hostScatterAdd_flat_apply_ite (x : (⟨1, ![N]⟩ : Shape).Idx → EReal) (idx : IVec ⟨2, ![E, 1]⟩ w)
    (upd : (⟨1, ![E]⟩ : Shape).Idx → EReal) (n : Fin N) :
    Ideal.hostScatterAdd (flatScatterDims N E wf) x idx upd (ix1 n)
      = x (ix1 n) + ∑ e : Fin E, (if (idx (ix2 e (0 : Fin 1))).toInt = (n.val : Int) then upd (ix1 e) else 0) := by
  rw [hostScatterAdd_flat_apply, Finset.sum_filter]

/-- The ideal flat scatter-add read at `n`, for ANY record `d` of dimension numbers that is `flatScatterDims` (the
    side condition `hd` closes by `rfl` on a literal record); the left side mentions `d` itself, so the lemma
    rewrites a goal that names the record. -/
theorem hostScatterAdd_flat_apply_ite_of_eq (d : ScatterDims ⟨1, ![N]⟩ ⟨2, ![E, 1]⟩ ⟨1, ![E]⟩)
    {wf : ScatterDims.WF ⟨1, ![N]⟩ ⟨2, ![E, 1]⟩ ⟨1, ![E]⟩ [] [0] [0] 1}
    (hd : d = flatScatterDims N E wf)
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e : Fin E, (if (idx (ix2 e (0 : Fin 1))).toInt = (n.val : Int) then upd (ix1 e) else 0) := by
  subst hd; exact hostScatterAdd_flat_apply_ite wf x idx upd n

end Cert.Lib.FlatScatter

end
-- ==== Proof.RefHistArr.lean ====
/-
  The reference's histogram as a function of the two flattened images, read as mathematics.

  * `refHistArr X Y`: the stages from the flattened images `X`, `Y` to the 64 x 64 histogram, as one term:
    `v = X * 1 + Y`; the weight `float (0 ≤ v ∧ v ≤ 1)`; the bin word (floor of `(v - 0) / 2^-12`, the last bin
    when `v = 1`, clipped into `[0, 4095]`, normalised as an index); the weights scatter-added at the bin
    words into `4096` zeros; reshaped to `64 x 64`.
  * `refIdxArr_apply`, `refWArr_apply`: the bin word and the weight of element `n` are the scalar functions
    `refIdx`, `refW` of the two elements `X n`, `Y n`.
  * `refHist_apply`: the histogram at `(r, c)` is the sum, over all elements `n`, of the weight of `n` when its
    bin word is `64 r + c`.  Update `n` lands at the position its bin word names (read signed, which for a word
    in `[0, 4095]` is the word read unsigned); the zeros contribute nothing; the reshape reads position
    `64 r + c` at `(r, c)`.
-/
import proofs.«127204_j17566416241189_2_alg».proof.ReferenceIdeal
import proofs.«127204_j17566416241189_2_alg».proof.Proof.Tail
import proofs.«127204_j17566416241189_2_alg».proof.Proof.RefScalar
import proofs.«127204_j17566416241189_2_alg».proof.Proof.LibFlatScatter
import Idealize.ShloMosaic.Lib.ValueIdx
import Idealize.ShloMosaic.Lib.Pipeline.Value
import Idealize.ShloMosaic.PureOps.Ideal.Laws

noncomputable section

open scoped BigOperators

namespace Cert.RefSide

open Idealize.ShloMosaic Idealize.ShloMosaic.ValueIdx
open Cert.ReferenceIdeal Cert.ReferenceIdeal.Facts₀

variable [Cert.ReferenceIdeal.Facts]

/-- `v = X * 1 + Y`, elementwise. -/
def refVArr (X Y : FVec Ideal S28311552 .f32) : FVec Ideal S28311552 .f32 :=
  addf (F := Ideal) (mulf (F := Ideal) X (broadcastInDim S28311552 ![] bcast_S_S28311552 (constant (F := Ideal) S_ .f32 0x3F800000#32))) Y

/-- The weights: `0 ≤ v` and `v ≤ 1`, as floats. -/
def refWArr (X Y : FVec Ideal S28311552 .f32) : FVec Ideal S28311552 .f32 :=
  uitofp (F := Ideal) .f32 (andi
    (cmpf (F := Ideal) .oge (refVArr X Y) (broadcastInDim S28311552 ![] bcast_S_S28311552 (constant (F := Ideal) S_ .f32 0x00000000#32)))
    (cmpf (F := Ideal) .ole (refVArr X Y) (broadcastInDim S28311552 ![] bcast_S_S28311552 (constant (F := Ideal) S_ .f32 0x3F800000#32))))

/-- The bin words before the index normalisation: floor of `(v - 0) / 2^-12` as a signed word, the last bin
    where `v = 1`, clipped into `[0, 4095]`. -/
def refClipArr (X Y : FVec Ideal S28311552 .f32) : IVec S28311552 32 :=
  minsi (broadcastInDim S28311552 ![] bcast_S_S28311552 (id (constantI S_ 32 4095#32)))
    (maxsi (broadcastInDim S28311552 ![] bcast_S_S28311552 (id (constantI S_ 32 0#32)))
      (select (cmpf (F := Ideal) .oeq (refVArr X Y) (broadcastInDim S28311552 ![] bcast_S_S28311552 (constant (F := Ideal) S_ .f32 0x3F800000#32)))
        (broadcastInDim S28311552 ![] bcast_S_S28311552 (id (constantI S_ 32 4095#32)))
        (fptosi (F := Ideal) 32 (Host.floor (F := Ideal) (Host.divf (F := Ideal)
          (subf (F := Ideal) (refVArr X Y) (broadcastInDim S28311552 ![] bcast_S_S28311552 (constant (F := Ideal) S_ .f32 0x00000000#32)))
          (broadcastInDim S28311552 ![] bcast_S_S28311552 (constant (F := Ideal) S_ .f32 0x39800000#32)))))))

/-- The bin words the scatter reads: `4096` added to a negative word. -/
def refIdxArr (X Y : FVec Ideal S28311552 .f32) : IVec S28311552 32 :=
  select (cmpi .slt (refClipArr X Y) (broadcastInDim S28311552 ![] bcast_S_S28311552 (constantI S_ 32 0#32)))
    (addi (refClipArr X Y) (broadcastInDim S28311552 ![] bcast_S_S28311552 (constantI S_ 32 4096#32)))
    (refClipArr X Y)

/-- The histogram: the weights scatter-added at the bin words into zeros, reshaped to `64 x 64`. -/
def refHistArr (X Y : FVec Ideal S28311552 .f32) : FVec Ideal S64x64 .f32 :=
  shapeCast _ (Host.scatterAdd (F := Ideal) scatter_S4096_S28311552x1_S28311552_n_0_0_1
    (broadcastInDim S4096 ![] bcast_S_S4096 (constant (F := Ideal) S_ .f32 0x00000000#32))
    (broadcastInDim S28311552x1 ![0] bcast_S28311552_S28311552x1_0 (refIdxArr X Y))
    (refWArr X Y)) shapeCasts_S4096_S64x64

/-- A scalar broadcast to the flat shape, read at an index, is the scalar. -/
theorem bcast_flat_apply {α : Type} (y : S_.Idx → α) (n : S28311552.Idx) :
    broadcastInDim S28311552 ![] bcast_S_S28311552 y n = y ix0 :=
  broadcastInDim_apply _ bcast_S_S28311552 y n ix0 (fun a => a.elim0)

/-- `v` at element `n`. -/
theorem refVArr_apply (X Y : FVec Ideal S28311552 .f32) (n : S28311552.Idx) :
    refVArr X Y n = refV (X n) (Y n) := by
  unfold refVArr refV
  show FloatOps.addf (FloatOps.mulf (X n) (broadcastInDim S28311552 ![] bcast_S_S28311552 (constant (F := Ideal) S_ .f32 0x3F800000#32) n)) (Y n) = _
  rw [bcast_flat_apply]
  rfl

/-- The weight of element `n`. -/
theorem refWArr_apply (X Y : FVec Ideal S28311552 .f32) (n : S28311552.Idx) :
    refWArr X Y n = refW (X n) (Y n) := by
  unfold refWArr refW
  show FloatOps.uitofp (F := Ideal) .f32 (IntOp.andi
    (FloatOps.cmpf .oge (refVArr X Y n) (broadcastInDim S28311552 ![] bcast_S_S28311552 (constant (F := Ideal) S_ .f32 0x00000000#32) n))
    (FloatOps.cmpf .ole (refVArr X Y n) (broadcastInDim S28311552 ![] bcast_S_S28311552 (constant (F := Ideal) S_ .f32 0x3F800000#32) n))) = _
  rw [bcast_flat_apply, bcast_flat_apply, refVArr_apply]
  rfl

/-- The clipped bin word of element `n`. -/
theorem refClipArr_apply (X Y : FVec Ideal S28311552 .f32) (n : S28311552.Idx) :
    refClipArr X Y n = refClip (X n) (Y n) := by
  unfold refClipArr refClip refSel refFloor
  show IntOp.minsi (broadcastInDim S28311552 ![] bcast_S_S28311552 (id (constantI S_ 32 4095#32)) n)
    (IntOp.maxsi (broadcastInDim S28311552 ![] bcast_S_S28311552 (id (constantI S_ 32 0#32)) n)
      (Scalar.select (FloatOps.cmpf .oeq (refVArr X Y n) (broadcastInDim S28311552 ![] bcast_S_S28311552 (constant (F := Ideal) S_ .f32 0x3F800000#32) n))
        (broadcastInDim S28311552 ![] bcast_S_S28311552 (id (constantI S_ 32 4095#32)) n)
        (FloatOps.fptosi 32 (FloatOps.hostUnary .floor (FloatOps.hostDivf
          (FloatOps.subf (refVArr X Y n) (broadcastInDim S28311552 ![] bcast_S_S28311552 (constant (F := Ideal) S_ .f32 0x00000000#32) n))
          (broadcastInDim S28311552 ![] bcast_S_S28311552 (constant (F := Ideal) S_ .f32 0x39800000#32) n)))))) = _
  simp only [bcast_flat_apply, refVArr_apply]
  rfl

/-- The bin word of element `n`. -/
theorem refIdxArr_apply (X Y : FVec Ideal S28311552 .f32) (n : S28311552.Idx) :
    refIdxArr X Y n = refIdx (X n) (Y n) := by
  unfold refIdxArr refIdx
  show Scalar.select (IntOp.cmpi .slt (refClipArr X Y n) (broadcastInDim S28311552 ![] bcast_S_S28311552 (constantI S_ 32 0#32) n))
    (IntOp.addi (refClipArr X Y n) (broadcastInDim S28311552 ![] bcast_S_S28311552 (constantI S_ 32 4096#32) n))
    (refClipArr X Y n) = _
  simp only [bcast_flat_apply, refClipArr_apply]
  rfl

/-- The program's scatter record is the flat scatter's dimension numbers at `N = 4096`, `E = 28311552`. -/
theorem scatter_eq_flat :
    scatter_S4096_S28311552x1_S28311552_n_0_0_1
      = Cert.Lib.FlatScatter.flatScatterDims 4096 28311552 scatter_S4096_S28311552x1_S28311552_n_0_0_1_wf := rfl

/-- At the ideal instance the host's accumulating scatter is the exact sum (by definition of the instance). -/
theorem hostScatterAdd_ideal {s si u : Shape} {w : Nat} (d : ScatterDims s si u) (x : FVec Ideal s .f32)
    (idx : IVec si w) (upd : FVec Ideal u .f32) :
    Host.scatterAdd (F := Ideal) d x idx upd = Ideal.hostScatterAdd d x idx upd := rfl

end Cert.RefSide

end
-- ==== Proof.RefHist.lean ====
/-
  The reference's histogram read at a bin, and the reference's result as the tail of that histogram.

  `res_eq`: the composed term the reference's run leaves in its result buffer is `tailFn` of `refHistArr` of the
  two flattened images: the same operations in the same order, the histogram's stages named.

  `refHist_apply`: the histogram at `(r, c)` is the sum, over all elements `n`, of the weight of `n` when its bin
  word is `64 r + c`.  The weights are scatter-added into zeros, which contribute nothing; update `n` lands at
  the position its bin word names, read signed, which for a word in `[0, 4095]` is the word read unsigned; the
  reshape reads position `64 r + c` at `(r, c)`.
-/
import proofs.«127204_j17566416241189_2_alg».proof.Proof.RefHistArr
import proofs.«127204_j17566416241189_2_alg».proof.Proof.RefRun

noncomputable section

open scoped BigOperators

namespace Cert.RefSide

open Idealize.ShloMosaic Idealize.ShloMosaic.ValueIdx
open Cert.ReferenceIdeal Cert.ReferenceIdeal.Facts₀

variable [Cert.ReferenceIdeal.Facts]

/-- The histogram at `(r, c)`: the sum over all elements of the weight of those whose bin word is `64 r + c`.
    (`ix1 n` is the library's index of a rank-one shape at `n`, `ix2 r c` that of a rank-two shape.) -/
theorem refHist_apply (X Y : FVec Ideal S28311552 .f32) (r c : Fin 64) :
    refHistArr X Y (ix2 r c)
      = ∑ n : Fin 28311552,
          (if (refIdx (X (ix1 n)) (Y (ix1 n))).toNat = 64 * r.val + c.val
            then refW (X (ix1 n)) (Y (ix1 n)) else 0) := by
  have hrc : r.val * 64 + c.val < 4096 := by have := r.isLt; have := c.isLt; omega
  unfold refHistArr
  rw [shapeCast_apply _ shapeCasts_S4096_S64x64 (ix2 r c) (ix1 (⟨r.val * 64 + c.val, hrc⟩ : Fin 4096))
    (by rewrite [Shape.rowMajor_val_one, Shape.rowMajor_val_two]; rfl)]
  rw [hostScatterAdd_ideal]
  rw [Cert.Lib.FlatScatter.hostScatterAdd_flat_apply_ite_of_eq (N := 4096) (E := 28311552)
    scatter_S4096_S28311552x1_S28311552_n_0_0_1 scatter_eq_flat]
  have hz : broadcastInDim S4096 ![] bcast_S_S4096 (constant (F := Ideal) S_ .f32 0x00000000#32)
      (ix1 (⟨r.val * 64 + c.val, hrc⟩ : Fin 4096)) = 0 := by
    rw [broadcastInDim_apply _ bcast_S_S4096 _ _ ix0 (fun a => a.elim0)]
    exact Ideal.ofBits_zero_f32
  rw [hz, zero_add]
  refine Finset.sum_congr rfl fun e _ => ?_
  have h27 : broadcastInDim S28311552x1 ![0] bcast_S28311552_S28311552x1_0 (refIdxArr X Y) (ix2 e (0 : Fin 1))
      = refIdxArr X Y (ix1 e) :=
    broadcastInDim_apply _ bcast_S28311552_S28311552x1_0 (refIdxArr X Y) (ix2 e (0 : Fin 1)) (ix1 e)
      (fun a => match a with
        | ⟨0, _⟩ => by show e.val = if (28311552 : Nat) = 1 then 0 else e.val; rw [if_neg (by decide)])
  rw [h27, refIdxArr_apply, refWArr_apply, refIdx_toInt_eq]
  refine if_congr ?_ rfl rfl
  show ((refIdx (X (ix1 e)) (Y (ix1 e))).toNat : Int) = ((r.val * 64 + c.val : Nat) : Int) ↔ _
  rw [Nat.cast_inj, Nat.mul_comm]

open Idealize.ShloMosaic.TcCoe Idealize.SL.Sem Idealize.ShloMosaic.StableHlo in
/-- The reference's result is the tail function of the histogram of the two flattened images. -/
theorem res_eq (m : (ℓ : Loc nD τ sig) → Buf (Elt Ideal) ℓ) (c : Dev nD) :
    Cert.ReferenceIdeal.Value.res_main_v81 (F := Ideal) m c
      = tailFn (refHistArr
          (shapeCast _ (m ((c.tc : Thread nD τ).loc main_arg0)) shapeCasts_S4x192x192x192_S28311552)
          (shapeCast _ (m ((c.tc : Thread nD τ).loc main_arg1)) shapeCasts_S4x192x192x192_S28311552)) := by
  unfold Cert.ReferenceIdeal.Value.res_main_v81
  rfl

end Cert.RefSide

end
-- ==== Proof.Bridge.lean ====
/-
  The kernel's value and the reference's value are one function of the two images.

  The merged histogram the region leaves is the reference's histogram of the two flattened images: at bin `(r, c)`
  both are the sum, over all elements, of the element's weight when its bin word is `64 r + c`. The lines after
  the region apply to it the same chain of operations as the reference applies to its histogram. So the program's
  result is `value` of its two argument arrays, and so is the reference's.
-/
import proofs.«127204_j17566416241189_2_alg».proof.Proof.FrameKI.FinalArr
import proofs.«127204_j17566416241189_2_alg».proof.Proof.FrameKI.TailVal
import proofs.«127204_j17566416241189_2_alg».proof.Proof.RefHist

set_option maxRecDepth 16384

noncomputable section

open scoped BigOperators

/-! ## The common value -/

namespace Cert.Bridge

open Idealize.ShloMosaic

/-- The value both programs return, as a function of the two images: the reference's tail function of the
    reference's histogram of the two images, flattened. -/
def value (X Y : FVec Ideal Cert.ReferenceIdeal.S4x192x192x192 .f32) : FVec Ideal Cert.ReferenceIdeal.S_ .f32 :=
  Cert.RefSide.tailFn (Cert.RefSide.refHistArr
    (shapeCast Cert.ReferenceIdeal.S28311552 X Cert.ReferenceIdeal.Gen.shapeCasts_S4x192x192x192_S28311552)
    (shapeCast Cert.ReferenceIdeal.S28311552 Y Cert.ReferenceIdeal.Gen.shapeCasts_S4x192x192x192_S28311552))

end Cert.Bridge

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

open Cert.RefSide Cert.KerChunk ValueIdx

/-- THE HISTOGRAMS AGREE: the merge of the region's two partial histograms is the reference's histogram of the two
    flattened images. -/
theorem hist_eq (c : Dev nD) :
    mergeCores (regionOut m c)
      = refHistArr (V m c main_v0 : S28311552.Idx → EReal) (V m c main_v1 : S28311552.Idx → EReal) := by
  funext i
  obtain ⟨r, cc, rfl⟩ : ∃ (r cc : Fin 64), i = ix2 r cc := ⟨i 0, i 1, eq_ix2 i⟩
  rw [show regionOut m c = result m c from final2 m c, merged_apply, refHist_apply]
  rfl

/-- The scalar the program returns is `value` of its two argument arrays. -/
theorem result_eq (c : Dev nD) :
    (Pipeline.afterTail₀ cfgs (dats m) 0 (V0 m) tailOps c main_v59 : S_.Idx → EReal)
      = Cert.Bridge.value (m ((c.tc : Thread nD τ).loc main_arg0)) (m ((c.tc : Thread nD τ).loc main_arg1)) := by
  rw [tail_val, hist_eq, V_main_v0, V_main_v1]
  rfl

/-- THE KERNEL'S RUN WITH ITS VALUE: every weakly fair execution terminates, the result buffer ends at `value` of the
    two argument arrays, and the argument arrays end as launched. -/
theorem kernel_value : θ_run defs (onTc (τ := τ) (main (F := Ideal))) ⟨m, fun _ => 0, ρ⟩ (fun r => ∀ c : Dev nD,
      r.2.mem ((c.tc : Thread nD τ).loc main_v59)
        = Cert.Bridge.value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v59 (Pipeline.mem_restRefs_of main_v59 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

namespace Cert.Bridge

open Idealize.ShloMosaic Idealize.ShloMosaic.TcCoe Idealize.SL.Sem
open Cert.ReferenceIdeal

/-- The reference's result is `value` of its two argument arrays. -/
theorem ref_value (m : (ℓ : Loc nD τ sig) → Buf (Elt Ideal) ℓ) (c : Dev nD) :
    Cert.ReferenceIdeal.Value.res_main_v81 (F := Ideal) m c
      = value (m ((c.tc : Thread nD τ).loc main_arg0)) (m ((c.tc : Thread nD τ).loc main_arg1)) :=
  Cert.RefSide.res_eq m c

end Cert.Bridge

end
-- ==== Proof.lean ====
/-
  A joint histogram computed two ways, and the score derived from it.

  Both programs bin each pair of image elements `(a, b)` by `v = a * 1 + b` into one of `64 × 64` bins and
  count, with weight `1`, the elements with `0 ≤ v ≤ 1`; then both derive the same score from the table of
  counts (the mutual information of the normalised table over the sum of its marginals' entropies).

  The kernel builds the table chunk by chunk as a matrix product: for a chunk of elements it forms the
  `64 × chunk` matrix whose column for an element is the one-hot vector of the element's row, and the
  `chunk × 64` matrix whose row for an element is the one-hot vector of its column, and adds their product to
  the table. Entry `(r, c)` of the product is the number of the chunk's elements whose row is `r` and whose
  column is `c`: the two one-hot entries of an element multiply to the indicator of its bin. An element out
  of range is given the bin word `-1`, whose row `-1 >> 6 = -1` is no row, so it is counted nowhere. Two
  halves of the image are tabulated separately and the two tables are added.

  The reference scatter-adds each element's weight at its bin word `64 r + c` and reshapes the `4096` sums
  to `64 × 64`. The bin words agree: the kernel multiplies `v - 0` by `4096`, the reference divides it by
  `2^-12`, and on the extended reals these are one function; a bin word `w` in `[0, 4095]` has row `w >> 6`
  and column `w & 63` exactly when `w = 64 r + c`. So entry `(r, c)` of either table is the sum, over all
  elements, of the element's weight when its bin word is `64 r + c`, and the score, the same chain of
  operations applied to equal tables, is equal.

  The frame claims (each program terminates and leaves its arguments as it found them) are the runs of the
  programs: no line of either writes an argument array.
-/
import proofs.«127204_j17566416241189_2_alg».proof.Defs
import proofs.«127204_j17566416241189_2_alg».proof.Proof.Gen.Kernel
import proofs.«127204_j17566416241189_2_alg».proof.Proof.Gen.KernelIdeal
import proofs.«127204_j17566416241189_2_alg».proof.Proof.Gen.ReferenceIdeal
import proofs.«127204_j17566416241189_2_alg».proof.Proof.Gen.Pre_finite_inputs
import proofs.«127204_j17566416241189_2_alg».proof.Proof.FrameK.FrameOf
import proofs.«127204_j17566416241189_2_alg».proof.Proof.FrameKI.FrameOf
import proofs.«127204_j17566416241189_2_alg».proof.Proof.RefRun
import proofs.«127204_j17566416241189_2_alg».proof.Proof.Bridge

noncomputable section

namespace Cert.Proof

open Idealize.ShloMosaic Idealize.SL.Sem

/-- The word-level kernel terminates and leaves its arguments as launched. -/
theorem frame_Kernel :
    Cert.frame_Kernel (hKernel := Cert.Kernel.Gen.facts) (hPre_finite_inputs := Cert.Pre_finite_inputs.Gen.facts) :=
  fun m g _ => Cert.Kernel.Hand.frame (F := Bits) m g

/-- The kernel read at the extended reals terminates and leaves its arguments as launched. -/
theorem frame_KernelIdeal :
    Cert.frame_KernelIdeal (hKernelIdeal := Cert.KernelIdeal.Gen.facts) (hPre_finite_inputs := Cert.Pre_finite_inputs.Gen.facts) :=
  fun m g _ => Cert.KernelIdeal.Hand.frame (F := Ideal) m g

/-- The reference terminates and leaves its arguments as launched. -/
theorem frame_ReferenceIdeal :
    Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- From memories that agree on the two images, both programs run and end with the same score. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' _ hagree
  refine ⟨fun c => Cert.Bridge.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.kernel_value m g, ?_⟩
  refine (θ_run Cert.ReferenceIdeal.defs _ _).mono (fun _ h c => ⟨(h c).1.trans ?_, (h c).2⟩)
    (Cert.ReferenceIdeal.Value.run (F := Ideal) m' g')
  rw [Cert.Bridge.ref_value, (hagree c).1, (hagree c).2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
